-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x3x256x256 : Shape := ⟨4, ![64, 3, 256, 256]⟩
abbrev S64x256x64x64 : Shape := ⟨4, ![64, 256, 64, 64]⟩
abbrev S64 : Shape := ⟨1, ![64]⟩
abbrev S_ : Shape := ⟨0, ![]⟩

class Facts : Prop where
  bcast_S_S64x3x256x256 : S_.BroadcastsInDim S64x3x256x256 (![] : Fin 0 → Fin S64x3x256x256.rank)
  reducesTo_S64x3x256x256_S_d0_1_2_3 : S64x3x256x256.ReducesTo [0, 1, 2, 3] S_
  h_S_ : 0 < S_.numel
  bcast_S_S64x256x64x64 : S_.BroadcastsInDim S64x256x64x64 (![] : Fin 0 → Fin S64x256x64x64.rank)
  reducesTo_S64x256x64x64_S_d0_1_2_3 : S64x256x64x64.ReducesTo [0, 1, 2, 3] S_

variable [Facts]

def fn_part1 {F : FTy → Type} [FloatOps F] (main_arg4 : FVec F S64x256x64x64 .f32) (main_v13 : IVec S_ 1) (main_v16 : IVec S64x256x64x64 1) : IVec S_ 1 :=
  let main_c_5 : IVec S_ 1 := constantI S_ 1 1#1
  let main_v17 : IVec S_ 1 := (fun x v => Host.reduce IntOp.andi x v reducesTo_S64x256x64x64_S_d0_1_2_3 h_S_) main_v16 main_c_5
  let main_v18 : IVec S_ 1 := andi main_v13 main_v17
  let main_v19 : FVec F S64x256x64x64 .f32 := Host.absf main_arg4
  let main_cst_6 : FVec F S_ .f32 := constant S_ .f32 0x7F800000#32
  let main_v20 : FVec F S64x256x64x64 .f32 := broadcastInDim S64x256x64x64 ![] bcast_S_S64x256x64x64 main_cst_6
  let main_v21 : IVec S64x256x64x64 1 := cmpf .olt main_v19 main_v20
  let main_c_7 : IVec S_ 1 := constantI S_ 1 1#1
  let main_v22 : IVec S_ 1 := (fun x v => Host.reduce IntOp.andi x v reducesTo_S64x256x64x64_S_d0_1_2_3 h_S_) main_v21 main_c_7
  let main_v23 : IVec S_ 1 := andi main_v18 main_v22
  main_v23

def fn {F : FTy → Type} [FloatOps F] (main_arg0 : FVec F S64x3x256x256 .f32) (main_arg1 : FVec F S64x3x256x256 .f32) (main_arg2 : FVec F S64x3x256x256 .f32) (main_arg3 : FVec F S64x256x64x64 .f32) (main_arg4 : FVec F S64x256x64x64 .f32) (main_arg5 : IVec S64 32) : IVec S_ 1 :=
  let main_v0 : FVec F S64x3x256x256 .f32 := Host.absf main_arg0
  let main_cst : FVec F S_ .f32 := constant S_ .f32 0x7F800000#32
  let main_v1 : FVec F S64x3x256x256 .f32 := broadcastInDim S64x3x256x256 ![] bcast_S_S64x3x256x256 main_cst
  let main_v2 : IVec S64x3x256x256 1 := cmpf .olt main_v0 main_v1
  let main_c : IVec S_ 1 := constantI S_ 1 1#1
  let main_v3 : IVec S_ 1 := (fun x v => Host.reduce IntOp.andi x v reducesTo_S64x3x256x256_S_d0_1_2_3 h_S_) main_v2 main_c
  let main_v4 : FVec F S64x3x256x256 .f32 := Host.absf main_arg1
  let main_cst_0 : FVec F S_ .f32 := constant S_ .f32 0x7F800000#32
  let main_v5 : FVec F S64x3x256x256 .f32 := broadcastInDim S64x3x256x256 ![] bcast_S_S64x3x256x256 main_cst_0
  let main_v6 : IVec S64x3x256x256 1 := cmpf .olt main_v4 main_v5
  let main_c_1 : IVec S_ 1 := constantI S_ 1 1#1
  let main_v7 : IVec S_ 1 := (fun x v => Host.reduce IntOp.andi x v reducesTo_S64x3x256x256_S_d0_1_2_3 h_S_) main_v6 main_c_1
  let main_v8 : IVec S_ 1 := andi main_v3 main_v7
  let main_v9 : FVec F S64x3x256x256 .f32 := Host.absf main_arg2
  let main_cst_2 : FVec F S_ .f32 := constant S_ .f32 0x7F800000#32
  let main_v10 : FVec F S64x3x256x256 .f32 := broadcastInDim S64x3x256x256 ![] bcast_S_S64x3x256x256 main_cst_2
  let main_v11 : IVec S64x3x256x256 1 := cmpf .olt main_v9 main_v10
  let main_c_3 : IVec S_ 1 := constantI S_ 1 1#1
  let main_v12 : IVec S_ 1 := (fun x v => Host.reduce IntOp.andi x v reducesTo_S64x3x256x256_S_d0_1_2_3 h_S_) main_v11 main_c_3
  let main_v13 : IVec S_ 1 := andi main_v8 main_v12
  let main_v14 : FVec F S64x256x64x64 .f32 := Host.absf main_arg3
  let main_cst_4 : FVec F S_ .f32 := constant S_ .f32 0x7F800000#32
  let main_v15 : FVec F S64x256x64x64 .f32 := broadcastInDim S64x256x64x64 ![] bcast_S_S64x256x64x64 main_cst_4
  let main_v16 : IVec S64x256x64x64 1 := cmpf .olt main_v14 main_v15
  fn_part1 (F := F) main_arg4 main_v13 main_v16
-- ==== Kernel.lean ====
abbrev S64x3x256x256 : Shape := ⟨4, ![64, 3, 256, 256]⟩
abbrev S64x256x64x64 : Shape := ⟨4, ![64, 256, 64, 64]⟩
abbrev S64 : Shape := ⟨1, ![64]⟩
abbrev S2 : Shape := ⟨1, ![2]⟩
abbrev S4x3x256x256 : Shape := ⟨4, ![4, 3, 256, 256]⟩
abbrev S4x3x256 : Shape := ⟨3, ![4, 3, 256]⟩
abbrev S4x3 : Shape := ⟨2, ![4, 3]⟩
abbrev S4 : Shape := ⟨1, ![4]⟩
abbrev S1x4 : Shape := ⟨2, ![1, 4]⟩
abbrev S1 : Shape := ⟨1, ![1]⟩
abbrev S1x1 : Shape := ⟨2, ![1, 1]⟩
abbrev S_ : Shape := ⟨0, ![]⟩
abbrev S64x1x8 : Shape := ⟨3, ![64, 1, 8]⟩
abbrev S64x1x256 : Shape := ⟨3, ![64, 1, 256]⟩
abbrev S1x256x64x64 : Shape := ⟨4, ![1, 256, 64, 64]⟩
abbrev S1x1x8 : Shape := ⟨3, ![1, 1, 8]⟩
abbrev S1x1x256 : Shape := ⟨3, ![1, 1, 256]⟩
abbrev S256x64x64 : Shape := ⟨3, ![256, 64, 64]⟩
abbrev S256x64 : Shape := ⟨2, ![256, 64]⟩
abbrev S256 : Shape := ⟨1, ![256]⟩
abbrev S1x256 : Shape := ⟨2, ![1, 256]⟩
abbrev S5 : Shape := ⟨1, ![5]⟩
abbrev S8 : Shape := ⟨1, ![8]⟩
abbrev S64x8 : Shape := ⟨2, ![64, 8]⟩
abbrev S64x256 : Shape := ⟨2, ![64, 256]⟩
abbrev S64x1 : Shape := ⟨2, ![64, 1]⟩
abbrev S1x64 : Shape := ⟨2, ![1, 64]⟩
abbrev S64x64 : Shape := ⟨2, ![64, 64]⟩

abbrev nBuf : Space → Nat
  | .hbm => 129
  | .vmem => 15
  | .smem => 0
  | _ => 0

abbrev hbmTy0_0 (i : Nat) : BufTy := match i % 128 with
  | 0 => ⟨S64x3x256x256, .f32⟩
  | 1 => ⟨S64x3x256x256, .f32⟩
  | 2 => ⟨S64x3x256x256, .f32⟩
  | 3 => ⟨S64x256x64x64, .f32⟩
  | 4 => ⟨S64x256x64x64, .f32⟩
  | 5 => ⟨S64, .i32⟩
  | 6 => ⟨S2, .f32⟩
  | 7 => ⟨S1, .f32⟩
  | 8 => ⟨S_, .f32⟩
  | 9 => ⟨S1, .f32⟩
  | 10 => ⟨S_, .f32⟩
  | 11 => ⟨S_, .f32⟩
  | 12 => ⟨S_, .f32⟩
  | 13 => ⟨S_, .f32⟩
  | 14 => ⟨S_, .f32⟩
  | 15 => ⟨S64x1x8, .f32⟩
  | 16 => ⟨S64x1x256, .f32⟩
  | 17 => ⟨S64x8, .f32⟩
  | 18 => ⟨S64x256, .f32⟩
  | 19 => ⟨S64x1, .f32⟩
  | 20 => ⟨S64, .f32⟩
  | 21 => ⟨S64x1, .f32⟩
  | 22 => ⟨S64, .f32⟩
  | 23 => ⟨S64x1, .f32⟩
  | 24 => ⟨S64, .f32⟩
  | 25 => ⟨S64, .f32⟩
  | 26 => ⟨S_, .f32⟩
  | 27 => ⟨S64, .f32⟩
  | 28 => ⟨S64, .f32⟩
  | 29 => ⟨S64, .f32⟩
  | 30 => ⟨S_, .f32⟩
  | 31 => ⟨S64, .f32⟩
  | 32 => ⟨S64, .f32⟩
  | 33 => ⟨S64, .f32⟩
  | 34 => ⟨S64, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S64x256, .f32⟩
  | 42 => ⟨S_, .f32⟩
  | 43 => ⟨S64, .f32⟩
  | 44 => ⟨S64x1, .f32⟩
  | 45 => ⟨S1x64, .f32⟩
  | 46 => ⟨S64x64, .f32⟩
  | 47 => ⟨S64x64, .f32⟩
  | 48 => ⟨S64x64, .f32⟩
  | 49 => ⟨S256x64, .f32⟩
  | 50 => ⟨S64x64, .f32⟩
  | 51 => ⟨S_, .f32⟩
  | 52 => ⟨S64x64, .f32⟩
  | 53 => ⟨S64x64, .f32⟩
  | 54 => ⟨S64x64, .f32⟩
  | 55 => ⟨S_, .f32⟩
  | 56 => ⟨S64x64, .f32⟩
  | 57 => ⟨S64x64, .f32⟩
  | 58 => ⟨S_, .f32⟩
  | 59 => ⟨S64x64, .f32⟩
  | 60 => ⟨S64x64, .f32⟩
  | 61 => ⟨S64x64, .f32⟩
  | 62 => ⟨S64x1, .i32⟩
  | 63 => ⟨S1x64, .i32⟩
  | 64 => ⟨S64x64, .i32⟩
  | 65 => ⟨S64x64, .i32⟩
  | 66 => ⟨S64x64, .i1⟩
  | 67 => ⟨S64x64, .i32⟩
  | 68 => ⟨S64x64, .i32⟩
  | 69 => ⟨S_, .i32⟩
  | 70 => ⟨S64x64, .i32⟩
  | 71 => ⟨S64x64, .i32⟩
  | 72 => ⟨S64x64, .i1⟩
  | 73 => ⟨S64x64, .i1⟩
  | 74 => ⟨S64x64, .i1⟩
  | 75 => ⟨S64x64, .i1⟩
  | 76 => ⟨S_, .f32⟩
  | 77 => ⟨S64x64, .f32⟩
  | 78 => ⟨S64x64, .f32⟩
  | 79 => ⟨S_, .f32⟩
  | 80 => ⟨S64, .f32⟩
  | 81 => ⟨S_, .f32⟩
  | 82 => ⟨S64x64, .f32⟩
  | 83 => ⟨S64x64, .f32⟩
  | 84 => ⟨S_, .f32⟩
  | 85 => ⟨S64, .f32⟩
  | 86 => ⟨S_, .i1⟩
  | 87 => ⟨S64, .i1⟩
  | 88 => ⟨S_, .i1⟩
  | 89 => ⟨S64, .i1⟩
  | 90 => ⟨S64, .i1⟩
  | 91 => ⟨S_, .f32⟩
  | 92 => ⟨S_, .f32⟩
  | 93 => ⟨S64, .f32⟩
  | 94 => ⟨S64, .f32⟩
  | 95 => ⟨S_, .f32⟩
  | 96 => ⟨S_, .f32⟩
  | 97 => ⟨S64, .f32⟩
  | 98 => ⟨S64, .f32⟩
  | 99 => ⟨S64, .f32⟩
  | 100 => ⟨S_, .f32⟩
  | 101 => ⟨S64, .f32⟩
  | 102 => ⟨S64, .f32⟩
  | 103 => ⟨S_, .f32⟩
  | 104 => ⟨S64, .f32⟩
  | 105 => ⟨S64, .f32⟩
  | 106 => ⟨S_, .f32⟩
  | 107 => ⟨S_, .f32⟩
  | 108 => ⟨S64, .f32⟩
  | 109 => ⟨S64, .f32⟩
  | 110 => ⟨S_, .f32⟩
  | 111 => ⟨S_, .f32⟩
  | 112 => ⟨S64, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S64x3x256x256, .f32⟩

abbrev hbmTy0_1 (i : Nat) : BufTy := match i % 128 with
  | 0 => ⟨S_, .f32⟩
  | _ => ⟨S64x3x256x256, .f32⟩

abbrev hbmTy (i : Nat) : BufTy := match i / 128 with
  | 0 => hbmTy0_0 i
  | 1 => hbmTy0_1 i
  | _ => ⟨S64x3x256x256, .f32⟩

abbrev bufTy : (tb : Table) → Fin (tcTables nBuf tb) → BufTy
  | .hbm, ⟨i, _⟩ => hbmTy i
  | .local _ .vmem, ⟨0, _⟩ => ⟨S4x3x256x256, .f32⟩
  | .local _ .vmem, ⟨1, _⟩ => ⟨S4x3x256x256, .f32⟩
  | .local _ .vmem, ⟨2, _⟩ => ⟨S4x3x256x256, .f32⟩
  | .local _ .vmem, ⟨3, _⟩ => ⟨S4x3x256x256, .f32⟩
  | .local _ .vmem, ⟨4, _⟩ => ⟨S4x3x256x256, .f32⟩
  | .local _ .vmem, ⟨5, _⟩ => ⟨S4x3x256x256, .f32⟩
  | .local _ .vmem, ⟨6, _⟩ => ⟨S2, .f32⟩
  | .local _ .vmem, ⟨7, _⟩ => ⟨S1x256x64x64, .f32⟩
  | .local _ .vmem, ⟨8, _⟩ => ⟨S1x256x64x64, .f32⟩
  | .local _ .vmem, ⟨9, _⟩ => ⟨S1x256x64x64, .f32⟩
  | .local _ .vmem, ⟨10, _⟩ => ⟨S1x256x64x64, .f32⟩
  | .local _ .vmem, ⟨11, _⟩ => ⟨S1x1x8, .f32⟩
  | .local _ .vmem, ⟨12, _⟩ => ⟨S1x1x8, .f32⟩
  | .local _ .vmem, ⟨13, _⟩ => ⟨S1x1x256, .f32⟩
  | .local _ .vmem, ⟨14, _⟩ => ⟨S1x1x256, .f32⟩
  | _, _ => ⟨S64x3x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_c : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_10 : Ref sig .tc := ⟨.hbm, 76, rfl⟩
abbrev main_call0_v0 : Ref sig .tc := ⟨.hbm, 77, rfl⟩
abbrev main_v57 : Ref sig .tc := ⟨.hbm, 78, rfl⟩
abbrev main_cst_11 : Ref sig .tc := ⟨.hbm, 79, rfl⟩
abbrev main_v58 : Ref sig .tc := ⟨.hbm, 80, rfl⟩
abbrev main_cst_12 : Ref sig .tc := ⟨.hbm, 81, rfl⟩
abbrev main_call1_v0 : Ref sig .tc := ⟨.hbm, 82, rfl⟩
abbrev main_v59 : Ref sig .tc := ⟨.hbm, 83, rfl⟩
abbrev main_cst_13 : Ref sig .tc := ⟨.hbm, 84, rfl⟩
abbrev main_v60 : Ref sig .tc := ⟨.hbm, 85, rfl⟩
abbrev main_c_14 : Ref sig .tc := ⟨.hbm, 86, rfl⟩
abbrev main_v61 : Ref sig .tc := ⟨.hbm, 87, rfl⟩
abbrev main_c_15 : Ref sig .tc := ⟨.hbm, 88, rfl⟩
abbrev main_v62 : Ref sig .tc := ⟨.hbm, 89, rfl⟩
abbrev main_v63 : Ref sig .tc := ⟨.hbm, 90, rfl⟩
abbrev main_cst_16 : Ref sig .tc := ⟨.hbm, 91, rfl⟩
abbrev main_call2_v0 : Ref sig .tc := ⟨.hbm, 92, rfl⟩
abbrev main_call2_v1 : Ref sig .tc := ⟨.hbm, 93, rfl⟩
abbrev main_v64 : Ref sig .tc := ⟨.hbm, 94, rfl⟩
abbrev main_cst_17 : Ref sig .tc := ⟨.hbm, 95, rfl⟩
abbrev main_call3_v0 : Ref sig .tc := ⟨.hbm, 96, rfl⟩
abbrev main_call3_v1 : Ref sig .tc := ⟨.hbm, 97, rfl⟩
abbrev main_v65 : Ref sig .tc := ⟨.hbm, 98, rfl⟩
abbrev main_v66 : Ref sig .tc := ⟨.hbm, 99, rfl⟩
abbrev main_cst_18 : Ref sig .tc := ⟨.hbm, 100, rfl⟩
abbrev main_v67 : Ref sig .tc := ⟨.hbm, 101, rfl⟩
abbrev main_v68 : Ref sig .tc := ⟨.hbm, 102, rfl⟩
abbrev main_call4_cst : Ref sig .tc := ⟨.hbm, 103, rfl⟩
abbrev main_call4_v0 : Ref sig .tc := ⟨.hbm, 104, rfl⟩
abbrev main_v69 : Ref sig .tc := ⟨.hbm, 105, rfl⟩
abbrev main_cst_19 : Ref sig .tc := ⟨.hbm, 106, rfl⟩
abbrev main_call5_v0 : Ref sig .tc := ⟨.hbm, 107, rfl⟩
abbrev main_call5_v1 : Ref sig .tc := ⟨.hbm, 108, rfl⟩
abbrev main_v70 : Ref sig .tc := ⟨.hbm, 109, rfl⟩
abbrev main_cst_20 : Ref sig .tc := ⟨.hbm, 110, rfl⟩
abbrev main_v71 : Ref sig .tc := ⟨.hbm, 111, rfl⟩
abbrev main_v72 : Ref sig .tc := ⟨.hbm, 112, rfl⟩
abbrev main_cst_21 : Ref sig .tc := ⟨.hbm, 113, rfl⟩
abbrev main_v73 : Ref sig .tc := ⟨.hbm, 114, rfl⟩
abbrev main_cst_22 : Ref sig .tc := ⟨.hbm, 115, rfl⟩
abbrev main_v74 : Ref sig .tc := ⟨.hbm, 116, rfl⟩
abbrev main_v75 : Ref sig .tc := ⟨.hbm, 117, rfl⟩
abbrev main_cst_23 : Ref sig .tc := ⟨.hbm, 118, rfl⟩
abbrev main_v76 : Ref sig .tc := ⟨.hbm, 119, rfl⟩
abbrev main_cst_24 : Ref sig .tc := ⟨.hbm, 120, rfl⟩
abbrev main_v77 : Ref sig .tc := ⟨.hbm, 121, rfl⟩
abbrev main_v78 : Ref sig .tc := ⟨.hbm, 122, rfl⟩
abbrev main_cst_25 : Ref sig .tc := ⟨.hbm, 123, rfl⟩
abbrev main_v79 : Ref sig .tc := ⟨.hbm, 124, rfl⟩
abbrev main_v80 : Ref sig .tc := ⟨.hbm, 125, rfl⟩
abbrev main_cst_26 : Ref sig .tc := ⟨.hbm, 126, rfl⟩
abbrev main_v81 : Ref sig .tc := ⟨.hbm, 127, rfl⟩
abbrev main_v82 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S4x3x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x3x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x3x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![64], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x256x64x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x256x64x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x8 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S2_S2_0 : ∀ a, (![0] : Fin 1 → Nat) a + S2.size a ≤ S2.size a
  h_S2 : 0 < S2.numel
  inb_S4x3x256x256_S4x3x256x256_0_0_0_0 : ∀ a, (![0, 0, 0, 0] : Fin 4 → Nat) a + S4x3x256x256.size a ≤ S4x3x256x256.size a
  h_S4x3x256x256 : 0 < S4x3x256x256.numel
  reduces_S4x3x256x256_S4x3x256 : S4x3x256x256.Reduces [3] S4x3x256
  reduces_S4x3x256_S4x3 : S4x3x256.Reduces [2] S4x3
  reduces_S4x3_S4 : S4x3.Reduces [1] S4
  shapeCasts_S4_S1x4 : S4.ShapeCasts S1x4
  reduces_S1x4_S1 : S1x4.Reduces [1] S1
  shapeCasts_S1_S1x1 : S1.ShapeCasts S1x1
  inpos_S1x1_p0_0 : ∀ a, (![0, 0] : Fin 2 → Nat) a < S1x1.size a
  concatenates_S1_S1_S2_d0 : Shape.Concatenates [S1, S1] S2 0
  shapeCasts_S2_S2 : S2.ShapeCasts S2
  slices_S2_S1_0 : S2.Slices ![0] S1
  shapeCasts_S1_S_ : S1.ShapeCasts S_
  slices_S2_S1_1 : S2.Slices ![1] S1
  inb_S1x256x64x64_S1x256x64x64_0_0_0_0 : ∀ a, (![0, 0, 0, 0] : Fin 4 → Nat) a + S1x256x64x64.size a ≤ S1x256x64x64.size a
  h_S1x256x64x64 : 0 < S1x256x64x64.numel
  shapeCasts_S1x256x64x64_S256x64x64 : S1x256x64x64.ShapeCasts S256x64x64
  reduces_S256x64x64_S256x64 : S256x64x64.Reduces [2] S256x64
  reduces_S256x64_S256 : S256x64.Reduces [1] S256
  shapeCasts_S256_S1x256 : S256.ShapeCasts S1x256
  reduces_S1x256_S1 : S1x256.Reduces [1] S1
  concatenates_S1_S1_S1_S5_S8_d0 : Shape.Concatenates [S1, S1, S1, S5] S8 0
  inb_S1x1x8_S1x1x8_0_0_0 : ∀ a, (![0, 0, 0] : Fin 3 → Nat) a + S1x1x8.size a ≤ S1x1x8.size a
  h_S1x1x8 : 0 < S1x1x8.numel
  shapeCasts_S1x1x8_S8 : S1x1x8.ShapeCasts S8
  shapeCasts_S8_S1x1x8 : S8.ShapeCasts S1x1x8
  inb_S1x1x256_S1x1x256_0_0_0 : ∀ a, (![0, 0, 0] : Fin 3 → Nat) a + S1x1x256.size a ≤ S1x1x256.size a
  h_S1x1x256 : 0 < S1x1x256.numel
  shapeCasts_S1x1x256_S256 : S1x1x256.ShapeCasts S256
  shapeCasts_S256_S1x1x256 : S256.ShapeCasts S1x1x256
  shapeCasts_S64x1x8_S64x8 : S64x1x8.ShapeCasts S64x8
  shapeCasts_S64x1x256_S64x256 : S64x1x256.ShapeCasts S64x256
  slices_S64x8_S64x1_0_0 : S64x8.Slices ![0, 0] S64x1
  shapeCasts_S64x1_S64 : S64x1.ShapeCasts S64
  slices_S64x8_S64x1_0_1 : S64x8.Slices ![0, 1] S64x1
  slices_S64x8_S64x1_0_2 : S64x8.Slices ![0, 2] S64x1
  bcast_S_S64 : S_.BroadcastsInDim S64 (![] : Fin 0 → Fin S64.rank)
  reducesTo_S64_S_d0 : S64.ReducesTo [0] S_
  h_S_ : 0 < S_.numel
  reducesTo_S64x256_S64_d1 : S64x256.ReducesTo [1] S64
  bcast_S64_S64x1_0 : S64.BroadcastsInDim S64x1 (![0] : Fin 1 → Fin S64x1.rank)
  bcast_S64_S1x64_1 : S64.BroadcastsInDim S1x64 (![1] : Fin 1 → Fin S1x64.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  transposes_S64x256_S256x64_1_0 : S64x256.Transposes [1, 0] S256x64
  bcast_S_S64x64 : S_.BroadcastsInDim S64x64 (![] : Fin 0 → Fin S64x64.rank)
  reducesTo_S64x64_S64_d1 : S64x64.ReducesTo [1] S64
  dot_S64x256_S256x64_S64x64_1_0_0_1_n_n_wf : DotDims.WF S64x256 S256x64 S64x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x3x256x256.size a ≤ S64x3x256x256.size a
  hwx0_0 : ∀ i : grid0.Coords, EltTy.bits .f32 = 32 ∨ (Rect.block (s := S64x3x256x256) S4x3x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x3x256x256.size a ≤ S64x3x256x256.size a
  hwx0_1 : ∀ i : grid0.Coords, EltTy.bits .f32 = 32 ∨ (Rect.block (s := S64x3x256x256) S4x3x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x3x256x256.size a ≤ S64x3x256x256.size a
  hwx0_2 : ∀ i : grid0.Coords, EltTy.bits .f32 = 32 ∨ (Rect.block (s := S64x3x256x256) S4x3x256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2.size a ≤ S2.size a
  hwx0_3 : ∀ i : grid0.Coords, EltTy.bits .f32 = 32 ∨ (Rect.block (s := S2) S2.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x64x64.size a ≤ S64x256x64x64.size a
  hwx1_0 : ∀ i : grid1.Coords, EltTy.bits .f32 = 32 ∨ (Rect.block (s := S64x256x64x64) S1x256x64x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x64x64.size a ≤ S64x256x64x64.size a
  hwx1_1 : ∀ i : grid1.Coords, EltTy.bits .f32 = 32 ∨ (Rect.block (s := S64x256x64x64) S1x256x64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x8.size a ≤ S64x1x8.size a
  hwx1_2 : ∀ i : grid1.Coords, EltTy.bits .f32 = 32 ∨ (Rect.block (s := S64x1x8) S1x1x8.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x256.size a ≤ S64x1x256.size a
  hwx1_3 : ∀ i : grid1.Coords, EltTy.bits .f32 = 32 ∨ (Rect.block (s := S64x1x256) S1x1x256.size (cc1_transform_3 i) (hinb1_3 i)).WholeWords (EltTy.packing .f32)

variable [Facts₀]

def dot_S64x256_S256x64_S64x64_1_0_0_1_n_n : DotDims S64x256 S256x64 S64x64 where
  lhsContracting := [1]
  rhsContracting := [0]
  lhsNonContracting := [0]
  rhsNonContracting := [1]
  lhsBatch := []
  rhsBatch := []
  wf := dot_S64x256_S256x64_S64x64_1_0_0_1_n_n_wf

abbrev win0_0 : Pipeline.Window sig grid0 :=
  Pipeline.Window.ofSpec (Memref.whole main_arg0) S4x3x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x3x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4x3x256x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg3) S1x256x64x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S1x256x64x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7_0) S1x1x8.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7_1) S1x1x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S64x3x256x256 : Shape := ⟨4, ![64, 3, 256, 256]⟩
abbrev S64x256x64x64 : Shape := ⟨4, ![64, 256, 64, 64]⟩
abbrev S64 : Shape := ⟨1, ![64]⟩
abbrev S_ : Shape := ⟨0, ![]⟩
abbrev S64x1048576 : Shape := ⟨2, ![64, 1048576]⟩
abbrev S64x256 : Shape := ⟨2, ![64, 256]⟩
abbrev S64x1 : Shape := ⟨2, ![64, 1]⟩
abbrev S1x64 : Shape := ⟨2, ![1, 64]⟩
abbrev S64x64 : Shape := ⟨2, ![64, 64]⟩
abbrev S256x64 : Shape := ⟨2, ![256, 64]⟩

abbrev nBuf : Space → Nat
  | .hbm => 138
  | .vmem => 0
  | .smem => 0
  | _ => 0

abbrev hbmTy0_0 (i : Nat) : BufTy := match i % 128 with
  | 0 => ⟨S64x3x256x256, .f32⟩
  | 1 => ⟨S64x3x256x256, .f32⟩
  | 2 => ⟨S64x3x256x256, .f32⟩
  | 3 => ⟨S64x256x64x64, .f32⟩
  | 4 => ⟨S64x256x64x64, .f32⟩
  | 5 => ⟨S64, .i32⟩
  | 6 => ⟨S64x3x256x256, .f32⟩
  | 7 => ⟨S64x3x256x256, .f32⟩
  | 8 => ⟨S_, .f32⟩
  | 9 => ⟨S_, .f32⟩
  | 10 => ⟨S_, .f32⟩
  | 11 => ⟨S_, .f32⟩
  | 12 => ⟨S64x3x256x256, .f32⟩
  | 13 => ⟨S64x3x256x256, .f32⟩
  | 14 => ⟨S_, .f32⟩
  | 15 => ⟨S_, .f32⟩
  | 16 => ⟨S_, .f32⟩
  | 17 => ⟨S_, .f32⟩
  | 18 => ⟨S64x1048576, .f32⟩
  | 19 => ⟨S64x1048576, .f32⟩
  | 20 => ⟨S64x1048576, .f32⟩
  | 21 => ⟨S_, .f32⟩
  | 22 => ⟨S64, .f32⟩
  | 23 => ⟨S64, .f32⟩
  | 24 => ⟨S_, .f32⟩
  | 25 => ⟨S64, .f32⟩
  | 26 => ⟨S64, .f32⟩
  | 27 => ⟨S64x1048576, .f32⟩
  | 28 => ⟨S_, .f32⟩
  | 29 => ⟨S64, .f32⟩
  | 30 => ⟨S64, .f32⟩
  | 31 => ⟨S_, .f32⟩
  | 32 => ⟨S64, .f32⟩
  | 33 => ⟨S64, .f32⟩
  | 34 => ⟨S64x1048576, .f32⟩
  | 35 => ⟨S_, .f32⟩
  | 36 => ⟨S64, .f32⟩
  | 37 => ⟨S64, .f32⟩
  | 38 => ⟨S64, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S64x256, .f32⟩
  | 47 => ⟨S_, .f32⟩
  | 48 => ⟨S64x256, .f32⟩
  | 49 => ⟨S64x256, .f32⟩
  | 50 => ⟨S64x256, .f32⟩
  | 51 => ⟨S_, .f32⟩
  | 52 => ⟨S64, .f32⟩
  | 53 => ⟨S64x1, .f32⟩
  | 54 => ⟨S1x64, .f32⟩
  | 55 => ⟨S64x64, .f32⟩
  | 56 => ⟨S64x64, .f32⟩
  | 57 => ⟨S64x64, .f32⟩
  | 58 => ⟨S256x64, .f32⟩
  | 59 => ⟨S64x64, .f32⟩
  | 60 => ⟨S_, .f32⟩
  | 61 => ⟨S64x64, .f32⟩
  | 62 => ⟨S64x64, .f32⟩
  | 63 => ⟨S64x64, .f32⟩
  | 64 => ⟨S_, .f32⟩
  | 65 => ⟨S64x64, .f32⟩
  | 66 => ⟨S64x64, .f32⟩
  | 67 => ⟨S_, .f32⟩
  | 68 => ⟨S64x64, .f32⟩
  | 69 => ⟨S64x64, .f32⟩
  | 70 => ⟨S64x64, .f32⟩
  | 71 => ⟨S64x1, .i32⟩
  | 72 => ⟨S1x64, .i32⟩
  | 73 => ⟨S64x64, .i32⟩
  | 74 => ⟨S64x64, .i32⟩
  | 75 => ⟨S64x64, .i1⟩
  | 76 => ⟨S64x64, .i32⟩
  | 77 => ⟨S64x64, .i32⟩
  | 78 => ⟨S_, .i32⟩
  | 79 => ⟨S64x64, .i32⟩
  | 80 => ⟨S64x64, .i32⟩
  | 81 => ⟨S64x64, .i1⟩
  | 82 => ⟨S64x64, .i1⟩
  | 83 => ⟨S64x64, .i1⟩
  | 84 => ⟨S64x64, .i1⟩
  | 85 => ⟨S_, .f32⟩
  | 86 => ⟨S64x64, .f32⟩
  | 87 => ⟨S64x64, .f32⟩
  | 88 => ⟨S_, .f32⟩
  | 89 => ⟨S64, .f32⟩
  | 90 => ⟨S_, .f32⟩
  | 91 => ⟨S64x64, .f32⟩
  | 92 => ⟨S64x64, .f32⟩
  | 93 => ⟨S_, .f32⟩
  | 94 => ⟨S64, .f32⟩
  | 95 => ⟨S_, .i1⟩
  | 96 => ⟨S64, .i1⟩
  | 97 => ⟨S_, .i1⟩
  | 98 => ⟨S64, .i1⟩
  | 99 => ⟨S64, .i1⟩
  | 100 => ⟨S_, .f32⟩
  | 101 => ⟨S_, .f32⟩
  | 102 => ⟨S64, .f32⟩
  | 103 => ⟨S64, .f32⟩
  | 104 => ⟨S_, .f32⟩
  | 105 => ⟨S_, .f32⟩
  | 106 => ⟨S64, .f32⟩
  | 107 => ⟨S64, .f32⟩
  | 108 => ⟨S64, .f32⟩
  | 109 => ⟨S_, .f32⟩
  | 110 => ⟨S64, .f32⟩
  | 111 => ⟨S64, .f32⟩
  | 112 => ⟨S_, .f32⟩
  | 113 => ⟨S64, .f32⟩
  | 114 => ⟨S64, .f32⟩
  | 115 => ⟨S_, .f32⟩
  | 116 => ⟨S_, .f32⟩
  | 117 => ⟨S64, .f32⟩
  | 118 => ⟨S64, .f32⟩
  | 119 => ⟨S_, .f32⟩
  | 120 => ⟨S_, .f32⟩
  | 121 => ⟨S64, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S64x3x256x256, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | _ => ⟨S64x3x256x256, .f32⟩

abbrev hbmTy (i : Nat) : BufTy := match i / 128 with
  | 0 => hbmTy0_0 i
  | 1 => hbmTy0_1 i
  | _ => ⟨S64x3x256x256, .f32⟩

abbrev bufTy : (tb : Table) → Fin (tcTables nBuf tb) → BufTy
  | .hbm, ⟨i, _⟩ => hbmTy i
  | _, _ => ⟨S64x3x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_call0_v0 : Ref sig .tc := ⟨.hbm, 20, rfl⟩
abbrev main_call0_cst : Ref sig .tc := ⟨.hbm, 21, rfl⟩
abbrev main_call0_v1 : Ref sig .tc := ⟨.hbm, 22, rfl⟩
abbrev main_v10 : Ref sig .tc := ⟨.hbm, 23, rfl⟩
abbrev main_cst_3 : Ref sig .tc := ⟨.hbm, 24, rfl⟩
abbrev main_v11 : Ref sig .tc := ⟨.hbm, 25, rfl⟩
abbrev main_v12 : Ref sig .tc := ⟨.hbm, 26, rfl⟩
abbrev main_call1_v0 : Ref sig .tc := ⟨.hbm, 27, rfl⟩
abbrev main_call1_cst : Ref sig .tc := ⟨.hbm, 28, rfl⟩
abbrev main_call1_v1 : Ref sig .tc := ⟨.hbm, 29, rfl⟩
abbrev main_v13 : Ref sig .tc := ⟨.hbm, 30, rfl⟩
abbrev main_cst_4 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_5 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_6 : Ref sig .tc := ⟨.hbm, 39, rfl⟩
abbrev main_v20 : Ref sig .tc := ⟨.hbm, 40, rfl⟩
abbrev main_cst_7 : Ref sig .tc := ⟨.hbm, 41, rfl⟩
abbrev main_v21 : Ref sig .tc := ⟨.hbm, 42, rfl⟩
abbrev main_cst_8 : Ref sig .tc := ⟨.hbm, 43, rfl⟩
abbrev main_v22 : Ref sig .tc := ⟨.hbm, 44, rfl⟩
abbrev main_cst_9 : Ref sig .tc := ⟨.hbm, 45, rfl⟩
abbrev main_v23 : Ref sig .tc := ⟨.hbm, 46, rfl⟩
abbrev main_cst_10 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_11 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_13 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_c : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_15 : Ref sig .tc := ⟨.hbm, 85, rfl⟩
abbrev main_call2_v0 : Ref sig .tc := ⟨.hbm, 86, rfl⟩
abbrev main_v56 : Ref sig .tc := ⟨.hbm, 87, rfl⟩
abbrev main_cst_16 : Ref sig .tc := ⟨.hbm, 88, rfl⟩
abbrev main_v57 : Ref sig .tc := ⟨.hbm, 89, rfl⟩
abbrev main_cst_17 : Ref sig .tc := ⟨.hbm, 90, rfl⟩
abbrev main_call3_v0 : Ref sig .tc := ⟨.hbm, 91, rfl⟩
abbrev main_v58 : Ref sig .tc := ⟨.hbm, 92, rfl⟩
abbrev main_cst_18 : Ref sig .tc := ⟨.hbm, 93, rfl⟩
abbrev main_v59 : Ref sig .tc := ⟨.hbm, 94, rfl⟩
abbrev main_c_19 : Ref sig .tc := ⟨.hbm, 95, rfl⟩
abbrev main_v60 : Ref sig .tc := ⟨.hbm, 96, rfl⟩
abbrev main_c_20 : Ref sig .tc := ⟨.hbm, 97, rfl⟩
abbrev main_v61 : Ref sig .tc := ⟨.hbm, 98, rfl⟩
abbrev main_v62 : Ref sig .tc := ⟨.hbm, 99, rfl⟩
abbrev main_cst_21 : Ref sig .tc := ⟨.hbm, 100, rfl⟩
abbrev main_call4_v0 : Ref sig .tc := ⟨.hbm, 101, rfl⟩
abbrev main_call4_v1 : Ref sig .tc := ⟨.hbm, 102, rfl⟩
abbrev main_v63 : Ref sig .tc := ⟨.hbm, 103, rfl⟩
abbrev main_cst_22 : Ref sig .tc := ⟨.hbm, 104, rfl⟩
abbrev main_call5_v0 : Ref sig .tc := ⟨.hbm, 105, rfl⟩
abbrev main_call5_v1 : Ref sig .tc := ⟨.hbm, 106, rfl⟩
abbrev main_v64 : Ref sig .tc := ⟨.hbm, 107, rfl⟩
abbrev main_v65 : Ref sig .tc := ⟨.hbm, 108, rfl⟩
abbrev main_cst_23 : Ref sig .tc := ⟨.hbm, 109, rfl⟩
abbrev main_v66 : Ref sig .tc := ⟨.hbm, 110, rfl⟩
abbrev main_v67 : Ref sig .tc := ⟨.hbm, 111, rfl⟩
abbrev main_call6_cst : Ref sig .tc := ⟨.hbm, 112, rfl⟩
abbrev main_call6_v0 : Ref sig .tc := ⟨.hbm, 113, rfl⟩
abbrev main_v68 : Ref sig .tc := ⟨.hbm, 114, rfl⟩
abbrev main_cst_24 : Ref sig .tc := ⟨.hbm, 115, rfl⟩
abbrev main_call7_v0 : Ref sig .tc := ⟨.hbm, 116, rfl⟩
abbrev main_call7_v1 : Ref sig .tc := ⟨.hbm, 117, rfl⟩
abbrev main_v69 : Ref sig .tc := ⟨.hbm, 118, rfl⟩
abbrev main_cst_25 : Ref sig .tc := ⟨.hbm, 119, rfl⟩
abbrev main_v70 : Ref sig .tc := ⟨.hbm, 120, rfl⟩
abbrev main_v71 : Ref sig .tc := ⟨.hbm, 121, rfl⟩
abbrev main_cst_26 : Ref sig .tc := ⟨.hbm, 122, rfl⟩
abbrev main_v72 : Ref sig .tc := ⟨.hbm, 123, rfl⟩
abbrev main_cst_27 : Ref sig .tc := ⟨.hbm, 124, rfl⟩
abbrev main_v73 : Ref sig .tc := ⟨.hbm, 125, rfl⟩
abbrev main_v74 : Ref sig .tc := ⟨.hbm, 126, rfl⟩
abbrev main_cst_28 : Ref sig .tc := ⟨.hbm, 127, rfl⟩
abbrev main_v75 : Ref sig .tc := ⟨.hbm, 128, rfl⟩
abbrev main_cst_29 : Ref sig .tc := ⟨.hbm, 129, rfl⟩
abbrev main_v76 : Ref sig .tc := ⟨.hbm, 130, rfl⟩
abbrev main_v77 : Ref sig .tc := ⟨.hbm, 131, rfl⟩
abbrev main_cst_30 : Ref sig .tc := ⟨.hbm, 132, rfl⟩
abbrev main_v78 : Ref sig .tc := ⟨.hbm, 133, rfl⟩
abbrev main_v79 : Ref sig .tc := ⟨.hbm, 134, rfl⟩
abbrev main_cst_31 : Ref sig .tc := ⟨.hbm, 135, rfl⟩
abbrev main_v80 : Ref sig .tc := ⟨.hbm, 136, rfl⟩
abbrev main_v81 : Ref sig .tc := ⟨.hbm, 137, rfl⟩

abbrev nD : Nat := 1
abbrev τ : Topo := Topo.v7x

variable {F : FTy → Type} [FloatOps F]

class Facts₀ : Prop where
  reducesTo_S64x3x256x256_S_d0_1_2_3 : S64x3x256x256.ReducesTo [0, 1, 2, 3] S_
  h_S_ : 0 < S_.numel
  shapeCasts_S64x256x64x64_S64x1048576 : S64x256x64x64.ShapeCasts S64x1048576
  reducesTo_S64x1048576_S64_d1 : S64x1048576.ReducesTo [1] S64
  bcast_S_S64 : S_.BroadcastsInDim S64 (![] : Fin 0 → Fin S64.rank)
  reducesTo_S64_S_d0 : S64.ReducesTo [0] S_
  reducesTo_S64x256x64x64_S64x256_d2_3 : S64x256x64x64.ReducesTo [2, 3] S64x256
  bcast_S_S64x256 : S_.BroadcastsInDim S64x256 (![] : Fin 0 → Fin S64x256.rank)
  reducesTo_S64x256_S64_d1 : S64x256.ReducesTo [1] S64
  bcast_S64_S64x1_0 : S64.BroadcastsInDim S64x1 (![0] : Fin 1 → Fin S64x1.rank)
  bcast_S64_S1x64_1 : S64.BroadcastsInDim S1x64 (![1] : Fin 1 → Fin S1x64.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  transposes_S64x256_S256x64_1_0 : S64x256.Transposes [1, 0] S256x64
  bcast_S_S64x64 : S_.BroadcastsInDim S64x64 (![] : Fin 0 → Fin S64x64.rank)
  reducesTo_S64x64_S64_d1 : S64x64.ReducesTo [1] S64
  dot_S64x256_S256x64_S64x64_1_0_0_1_n_n_wf : DotDims.WF S64x256 S256x64 S64x64 [1] [0] [0] [1] [] []

variable [Facts₀]

def dot_S64x256_S256x64_S64x64_1_0_0_1_n_n : DotDims S64x256 S256x64 S64x64 where
  lhsContracting := [1]
  rhsContracting := [0]
  lhsNonContracting := [0]
  rhsNonContracting := [1]
  lhsBatch := []
  rhsBatch := []
  wf := dot_S64x256_S256x64_S64x64_1_0_0_1_n_n_wf

class Facts : Prop extends Facts₀ where

variable [Facts]
-- ==== Proof.KRun.lean ====
/-
  The idealized kernel's run with its result named. Every weakly fair execution of the program ends, nothing
  faulting, with the argument arrays as launched and the result buffer holding what the fold of the program's
  segments — the two reduction passes and the stretches of host operations between and after them — leaves
  there (`Gen.W16`, the buffer contents at the last segment boundary). This is the launch that proves the
  frame, read at one more buffer of the final state: the result is an unscoped buffer like the arguments.
-/
import proofs.«140594_j31001073943294_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_val : θ_run defs (onTc (τ := τ) (main (F := F))) ⟨m, fun _ => 0, ρ⟩ (fun r => ∀ c : Dev nD,
      r.2.mem ((c.tc : Thread nD τ).loc main_v82) = W16 m ρ c (Proc.devRef .tc main_v82)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v82 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c)⟩)

end Cert.KernelIdeal.KRun

end
-- ==== Proof.Spec.lean ====
/-
  The mathematics of the loss, stated once over the extended reals and over no program: what the two
  reduction passes of the kernel leave in their output arrays, as functions of the argument arrays.

  * The first pass walks the batch of 64 images in 16 tiles of 4. At every tile it adds, to a two-entry
    accumulator that starts at zero, the tile's sum of squared differences `(out_b - target)²` (entry 0) and
    `(out_a - out_b)²` (entry 1), each summed over the tile's 4 images, 3 channels, 256 rows and 256 columns.
  * The second pass visits one feature map per point: for sample `n` it writes the three inner products
    `⟨fa, fb⟩`, `⟨fa, fa⟩`, `⟨fb, fb⟩` over channels, rows and columns, followed by five zeros, and, per channel,
    the spatial sum of `fb` times the constant `2⁻¹²` (the reciprocal of the 64 · 64 positions).
-/
import Idealize.ShloMosaic.PureOps.Ideal
import Idealize.ShloMosaic.Lib.ValueIdx

noncomputable section

namespace Cert.Spec

open Idealize.ShloMosaic Idealize.ShloMosaic.ValueIdx
open scoped BigOperators

/-- A batch of 64 three-channel 256 × 256 images. -/
abbrev Img := (⟨4, ![64, 3, 256, 256]⟩ : Shape).Idx → EReal
/-- A batch of 64 feature maps of 256 channels over 64 × 64 positions. -/
abbrev Feat := (⟨4, ![64, 256, 64, 64]⟩ : Shape).Idx → EReal

/-- Image `a` of tile `t` is image `4 t + a` of the batch. -/
def row (t : Fin 16) (a : Fin 4) : Fin 64 := ⟨4 * t.val + a.val, by omega⟩

/-- The squared difference of two batches at one position. -/
def sqDiff (x y : Img) (i : (⟨4, ![64, 3, 256, 256]⟩ : Shape).Idx) : EReal := (x i - y i) * (x i - y i)

/-- One tile's sum of squared differences: over its 4 images, 3 channels, 256 rows, 256 columns. -/
def tileSq (x y : Img) (t : Fin 16) : EReal :=
  ∑ a : Fin 4, ∑ b : Fin 3, ∑ c : Fin 256, ∑ d : Fin 256, sqDiff x y (ix4 (row t a) b c d)

/-- The two-entry accumulator after all 16 tiles: entry 0 the sum of `(out_b - target)²`, entry 1 of `(out_a - out_b)²`. -/
def mseAcc (oa ob tg : Img) : (⟨1, ![2]⟩ : Shape).Idx → EReal :=
  fun j => if (j 0).val = 0 then ∑ t : Fin 16, tileSq ob tg t else ∑ t : Fin 16, tileSq oa ob t

/-- The inner product of two feature maps of sample `n`: over 256 channels, 64 rows, 64 columns. -/
def dot3 (x y : Feat) (n : Fin 64) : EReal :=
  ∑ c : Fin 256, ∑ h : Fin 64, ∑ w : Fin 64, x (ix4 n c h w) * y (ix4 n c h w)

/-- The eight statistics of sample `n`: the three inner products, then zeros. -/
def statAt (fa fb : Feat) (n : Fin 64) (k : ℕ) : EReal :=
  if k = 0 then dot3 fa fb n else if k = 1 then dot3 fa fa n else if k = 2 then dot3 fb fb n else 0

/-- The statistics array, 64 × 1 × 8. -/
def featStats (fa fb : Feat) : (⟨3, ![64, 1, 8]⟩ : Shape).Idx → EReal :=
  fun j => statAt fa fb ⟨(j 0).val, (j 0).isLt⟩ (j 2).val

/-- The spatial sum of channel `c` of sample `n`. -/
def spatial (fb : Feat) (n : Fin 64) (c : Fin 256) : EReal := ∑ h : Fin 64, ∑ w : Fin 64, fb (ix4 n c h w)

/-- The pooled array, 64 × 1 × 256: the spatial sum times the constant the kernel multiplies by (`2⁻¹²`). -/
def featGap (fb : Feat) : (⟨3, ![64, 1, 256]⟩ : Shape).Idx → EReal :=
  fun j => spatial fb ⟨(j 0).val, (j 0).isLt⟩ ⟨(j 2).val, (j 2).isLt⟩ * Ideal.ofBits .f32 0x39800000#32

end Cert.Spec

end
-- ==== Proof.Region0.lean ====
/-
  The squared-error pass, read as values over the extended reals.

  The pass walks the batch of 64 images in 16 tiles of 4 images. Its one output is a two-entry accumulator whose block
  is the whole array at every point, so its buffer is carried from point to point and written back once, after the
  last point. At the first point the body stores the zero pair; at every point it loads the accumulator, adds the pair

      [ ∑ (out_b - target)² ,  ∑ (out_a - out_b)² ]      (each sum over the tile's 4 × 3 × 256 × 256 entries)

  and stores it back. Each of the two sums is taken along the columns, then the rows, then the channels; the four
  per-image sums are laid out as a 1 × 4 row and summed once more. Over the extended reals addition is commutative and
  associative with no side condition, so this is the plain fourfold sum, and `0 + x = x` disposes of the zero pair.

  The steps: what each of the two control cases leaves in the buffer is the stored value (`out_A`, `out_B`); the
  stored value entry by entry (`pay2_apply`, over `blockSum_eq`); an input's block at point `t` is the array at
  images `4 t … 4 t + 3` (`blk0`, `blk1`, `blk2`), so the block sums are the tile's sums (`tile_rec`, `tile_con`);
  by induction on the point the buffer holds the sums over the tiles so far (`outsAt_eq`); the last point's buffer is
  what is written back, and it covers the array (`arr_result`, `arr_acc`).
-/
import proofs.«140594_j31001073943294_1_alg».proof.Proof.Gen.KernelIdeal.Frame
import proofs.«140594_j31001073943294_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.ShloMosaic.Tactic
open Idealize.ShloMosaic.ValueIdx
open Idealize.SL Idealize.SL.Sem
open Idealize.ShloMosaic.Pipeline (Dat Cfg Window)
open scoped BigOperators

variable {F : FTy → Type} [FloatOps F]

/-- The offsets of a load or store of the whole two-entry accumulator are zero. -/
theorem hz1 : (![0] : Fin 1 → Nat) = fun _ => 0 := funext fun a => by fin_cases a; rfl
/-- The offsets of a load of a whole 4 × 3 × 256 × 256 block are zero. -/
theorem hz4 : (![0, 0, 0, 0] : Fin 4 → Nat) = fun _ => 0 := funext fun a => by fin_cases a <;> rfl

/-! ## What each control case leaves in the accumulator's buffer -/

/-- At a later point the body's one store covers the buffer: it leaves the store's value, computed from the three
    input blocks and the accumulator as the point before left it. -/
theorem out_B (c : Dev nD) (i : grid0.Coords)
    (a1 : Memref sig .tc .vmem S4x3x256x256 .f32) (h1 : a1.IsWhole)
    (a2 : Memref sig .tc .vmem S4x3x256x256 .f32) (h2 : a2.IsWhole)
    (a3 : Memref sig .tc .vmem S4x3x256x256 .f32) (h3 : a3.IsWhole)
    (a4 : Memref sig .tc .vmem S2 .f32) (h4 : a4.IsWhole) (hc : ¬cond0_0 i)
    (x0 x1 x2 : Vec F S4x3x256x256 .f32) (xo : Vec F S2 .f32) :
    out0_B_3 c i a1 h1 a2 h2 a3 h3 a4 h4 hc x0 x1 x2 xo = k0_pay2 x0 x1 x2 xo := by
  unfold out0_B_3
  rw [View.read_writes_eq_canon _ _ _ (cover0_B_3 c i a1 h1 a2 h2 a3 h3 a4 h4 hc x0 x1 x2 xo)]
  unfold kernelRun0_B
  dsimp only
  rw [View.canon_unit_zero hz1]
  simp only [View.readAt_eq_ld, h1.read_unread, h2.read_unread, h3.read_unread, h4.read_unread,
    View.ld_unit_zero (S := S4x3x256x256) hz4, View.ld_unit_zero (S := S2) hz1]

/-- At the first point the body first stores the zero pair, reads it back, and then stores the same value as at a
    later point, computed over the zero pair. -/
theorem out_A (c : Dev nD) (i : grid0.Coords)
    (a1 : Memref sig .tc .vmem S4x3x256x256 .f32) (h1 : a1.IsWhole)
    (a2 : Memref sig .tc .vmem S4x3x256x256 .f32) (h2 : a2.IsWhole)
    (a3 : Memref sig .tc .vmem S4x3x256x256 .f32) (h3 : a3.IsWhole)
    (a4 : Memref sig .tc .vmem S2 .f32) (h4 : a4.IsWhole) (hc : cond0_0 i)
    (x0 x1 x2 : Vec F S4x3x256x256 .f32) :
    out0_A_3 c i a1 h1 a2 h2 a3 h3 a4 h4 hc x0 x1 x2 = k0_pay2 x0 x1 x2 (k0_pay1 (F := F)) := by
  unfold out0_A_3
  rw [View.read_writes_eq_canon _ _ _ (cover0_A_3 c i a1 h1 a2 h2 a3 h3 a4 h4 hc x0 x1 x2)]
  unfold kernelRun0_A
  dsimp only
  sl_unfold_words
  rw [View.canon_cons_unit_zero (S := S2) hz1, View.readCov_unit_zero (S := S2) _ hz1]
  simp only [View.readAt_eq_ld, h1.read_unread, h2.read_unread, h3.read_unread,
    View.ld_unit_zero (S := S4x3x256x256) hz4]

/-! ## The arithmetic of one store -/

/-- The sum of the squared differences of two blocks, as the body takes it: along the columns, then the rows, then the
    channels; the four per-image sums, laid out as a 1 × 4 row, summed again; the one entry left read out. -/
def blockSum (x y : FVec F S4x3x256x256 .f32) : F .f32 :=
  extractAt ![0, 0]
    (shapeCast S1x1
      (multiReduction .add [1] S1
        (shapeCast S1x4
          (multiReduction .add [1] S4
            (multiReduction .add [2] S4x3
              (multiReduction .add [3] S4x3x256 (mulf (subf x y) (subf x y)) 0x00000000#32
                reduces_S4x3x256x256_S4x3x256 (.inl rfl) rfl)
              0x00000000#32 reduces_S4x3x256_S4x3 (.inl rfl) rfl)
            0x00000000#32 reduces_S4x3_S4 (.inl rfl) rfl)
          shapeCasts_S4_S1x4)
        0x00000000#32 reduces_S1x4_S1 (.inl rfl) rfl)
      shapeCasts_S1_S1x1)
    inpos_S1x1_p0_0

/-- The stored value: the accumulator as loaded, plus the pair made of the two block sums — of `(out_b - target)²`
    first, of `(out_a - out_b)²` second. -/
theorem pay2_eq (x0 x1 x2 : Vec F S4x3x256x256 .f32) (xo : Vec F S2 .f32) :
    k0_pay2 x0 x1 x2 xo
      = addf (shapeCast S2 xo shapeCasts_S2_S2)
          (concatenate S2 0 [⟨S1, broadcast S1 (blockSum x1 x2)⟩, ⟨S1, broadcast S1 (blockSum x0 x1)⟩]
            concatenates_S1_S1_S2_d0) := rfl

/-- The index a reduction along the columns reads: the kept coordinates with the column put back. -/
theorem lift3 (h : S4x3x256x256.Reduces [3] S4x3x256) (a : Fin 4) (b : Fin 3) (p q : Fin 256) :
    h.lift (ix3 a b p) q = ix4 a b p q :=
  funext fun ax => Fin.ext (by match ax with | ⟨0, _⟩ => rfl | ⟨1, _⟩ => rfl | ⟨2, _⟩ => rfl | ⟨3, _⟩ => rfl)
/-- Along the rows. -/
theorem lift2 (h : S4x3x256.Reduces [2] S4x3) (a : Fin 4) (b : Fin 3) (p : Fin 256) :
    h.lift (ix2 a b) p = ix3 a b p :=
  funext fun ax => Fin.ext (by match ax with | ⟨0, _⟩ => rfl | ⟨1, _⟩ => rfl | ⟨2, _⟩ => rfl)
/-- Along the channels. -/
theorem lift1 (h : S4x3.Reduces [1] S4) (a : Fin 4) (b : Fin 3) : h.lift (ix1 a) b = ix2 a b :=
  funext fun ax => Fin.ext (by match ax with | ⟨0, _⟩ => rfl | ⟨1, _⟩ => rfl)
/-- Along the four images of the 1 × 4 row. -/
theorem lift0 (h : S1x4.Reduces [1] S1) (u : Fin 1) (a : Fin 4) : h.lift (ix1 u) a = ix2 u a :=
  funext fun ax => Fin.ext (by match ax with | ⟨0, _⟩ => rfl | ⟨1, _⟩ => rfl)

/-- A sum along the columns, at an index. -/
theorem red3 (v : FVec Ideal S4x3x256x256 .f32) (h : S4x3x256x256.Reduces [3] S4x3x256) (hφ : FKind.Formats .f32)
    (hacc : (0x00000000#32 : BitVec 32) = FKind.add.neutral .f32 hφ) (a : Fin 4) (b : Fin 3) (p : Fin 256) :
    multiReduction (F := Ideal) .add [3] S4x3x256 v 0x00000000#32 h hφ hacc (ix3 a b p) = ∑ q : Fin 256, v (ix4 a b p q) :=
  (Ideal.multiReduction_add_single v 0x00000000#32 h hφ hacc (ix3 a b p)).trans
    (Finset.sum_congr rfl fun q _ => congrArg v (lift3 h a b p q))
/-- A sum along the rows, at an index. -/
theorem red2 (v : FVec Ideal S4x3x256 .f32) (h : S4x3x256.Reduces [2] S4x3) (hφ : FKind.Formats .f32)
    (hacc : (0x00000000#32 : BitVec 32) = FKind.add.neutral .f32 hφ) (a : Fin 4) (b : Fin 3) :
    multiReduction (F := Ideal) .add [2] S4x3 v 0x00000000#32 h hφ hacc (ix2 a b) = ∑ p : Fin 256, v (ix3 a b p) :=
  (Ideal.multiReduction_add_single v 0x00000000#32 h hφ hacc (ix2 a b)).trans
    (Finset.sum_congr rfl fun p _ => congrArg v (lift2 h a b p))
/-- A sum along the channels, at an index. -/
theorem red1 (v : FVec Ideal S4x3 .f32) (h : S4x3.Reduces [1] S4) (hφ : FKind.Formats .f32)
    (hacc : (0x00000000#32 : BitVec 32) = FKind.add.neutral .f32 hφ) (a : Fin 4) :
    multiReduction (F := Ideal) .add [1] S4 v 0x00000000#32 h hφ hacc (ix1 a) = ∑ b : Fin 3, v (ix2 a b) :=
  (Ideal.multiReduction_add_single v 0x00000000#32 h hφ hacc (ix1 a)).trans
    (Finset.sum_congr rfl fun b _ => congrArg v (lift1 h a b))
/-- A sum along the 1 × 4 row, at its one index. -/
theorem red0 (v : FVec Ideal S1x4 .f32) (h : S1x4.Reduces [1] S1) (hφ : FKind.Formats .f32)
    (hacc : (0x00000000#32 : BitVec 32) = FKind.add.neutral .f32 hφ) (u : Fin 1) :
    multiReduction (F := Ideal) .add [1] S1 v 0x00000000#32 h hφ hacc (ix1 u) = ∑ a : Fin 4, v (ix2 u a) :=
  (Ideal.multiReduction_add_single v 0x00000000#32 h hφ hacc (ix1 u)).trans
    (Finset.sum_congr rfl fun a _ => congrArg v (lift0 h u a))

/-- Over the extended reals the block sum is the fourfold sum of the squared differences. -/
theorem blockSum_eq (x y : FVec Ideal S4x3x256x256 .f32) :
    blockSum (F := Ideal) x y
      = ∑ a : Fin 4, ∑ b : Fin 3, ∑ p : Fin 256, ∑ q : Fin 256,
          (x (ix4 a b p q) - y (ix4 a b p q)) * (x (ix4 a b p q) - y (ix4 a b p q)) := by
  unfold blockSum extractAt
  refine (shapeCast_a_1a_apply _ shapeCasts_S1_S1x1 (0 : Fin 1) (0 : Fin 1)).trans ?_
  refine (red0 _ _ _ _ (0 : Fin 1)).trans (Finset.sum_congr rfl fun a _ => ?_)
  refine (shapeCast_a_1a_apply _ shapeCasts_S4_S1x4 (0 : Fin 1) a).trans ?_
  refine (red1 _ _ _ _ a).trans (Finset.sum_congr rfl fun b _ => ?_)
  refine (red2 _ _ _ _ a b).trans (Finset.sum_congr rfl fun p _ => ?_)
  refine (red3 _ _ _ _ a b p).trans (Finset.sum_congr rfl fun q _ => ?_)
  rfl

/-- The stored pair, entry by entry: the accumulator's entry plus the block sum that entry collects. -/
theorem pay2_apply (x0 x1 x2 : FVec Ideal S4x3x256x256 .f32) (xo : FVec Ideal S2 .f32) (q : Fin 2) :
    k0_pay2 (F := Ideal) x0 x1 x2 xo (ix1 q)
      = xo (ix1 q) + (if q.val = 0 then blockSum (F := Ideal) x1 x2 else blockSum (F := Ideal) x0 x1) := by
  rw [pay2_eq, addf_apply, shapeCast_self]
  congr 1
  match q with
  | ⟨0, _⟩ =>
    rw [if_pos rfl]
    exact concatenate_pair_apply_left (0 : Fin S2.rank) _ _ concatenates_S1_S1_S2_d0 _ rfl (ix1 (0 : Fin 1))
      (fun b => by match b with | ⟨0, _⟩ => rfl)
  | ⟨1, _⟩ =>
    rw [if_neg (by simp)]
    exact concatenate_pair_apply_right (0 : Fin S2.rank) _ _ concatenates_S1_S1_S2_d0 _ rfl rfl (ix1 (0 : Fin 1))
      (fun b hb => by match b with | ⟨0, _⟩ => exact absurd rfl hb) rfl

/-! ## The input blocks -/

/-- A grid point as a tile number. -/
def tile (t : Fin cfg0.N) : Fin 16 := ⟨t.val, lt_of_lt_of_eq t.isLt (show cfg0.N = 16 from N_0)⟩

/-- The index maps, decided over the grid: block `t` of each input starts at image `4 t`, channel, row and column 0. -/
theorem idx_in0 : ∀ t : Fin cfg0.N,
    win0_0.index t 0 = t.val ∧ win0_0.index t 1 = 0 ∧ win0_0.index t 2 = 0 ∧ win0_0.index t 3 = 0 :=
  (by decide +kernel : ∀ t : Fin grid0.N,
    win0_0.index t 0 = t.val ∧ win0_0.index t 1 = 0 ∧ win0_0.index t 2 = 0 ∧ win0_0.index t 3 = 0)
theorem idx_in1 : ∀ t : Fin cfg0.N,
    win0_1.index t 0 = t.val ∧ win0_1.index t 1 = 0 ∧ win0_1.index t 2 = 0 ∧ win0_1.index t 3 = 0 :=
  (by decide +kernel : ∀ t : Fin grid0.N,
    win0_1.index t 0 = t.val ∧ win0_1.index t 1 = 0 ∧ win0_1.index t 2 = 0 ∧ win0_1.index t 3 = 0)
theorem idx_in2 : ∀ t : Fin cfg0.N,
    win0_2.index t 0 = t.val ∧ win0_2.index t 1 = 0 ∧ win0_2.index t 2 = 0 ∧ win0_2.index t 3 = 0 :=
  (by decide +kernel : ∀ t : Fin grid0.N,
    win0_2.index t 0 = t.val ∧ win0_2.index t 1 = 0 ∧ win0_2.index t 2 = 0 ∧ win0_2.index t 3 = 0)

section Blocks
variable (V : (c : Dev nD) → (b : Ref sig .tc) → Buf (Elt Ideal) ((c : Thread nD τ).loc b))

/-- An input's block at point `t`, at image `a` of the block, is the input array at image `4 t + a`, the other
    coordinates unchanged. -/
theorem blk0 (c : Dev nD) (t : Fin cfg0.N) (a : Fin 4) (b : Fin 3) (p q : Fin 256) :
    (iblk0 (F := Ideal) V c 0 t : S4x3x256x256.Idx → EReal) (ix4 a b p q)
      = (V c main_arg0 : Cert.Spec.Img) (ix4 (Cert.Spec.row (tile t) a) b p q) := by
  obtain ⟨h0, h1, h2, h3⟩ := idx_in0 t
  unfold iblk0
  rw [View.read_apply]
  show V c main_arg0 _ = V c main_arg0 _
  congr 1
  funext ax
  apply Fin.ext
  match ax with
  | ⟨0, _⟩ => show win0_0.index t 0 * 4 + 1 * a.val = 4 * t.val + a.val; rw [h0]; omega
  | ⟨1, _⟩ => show win0_0.index t 1 * 3 + 1 * b.val = b.val; rw [h1]; omega
  | ⟨2, _⟩ => show win0_0.index t 2 * 256 + 1 * p.val = p.val; rw [h2]; omega
  | ⟨3, _⟩ => show win0_0.index t 3 * 256 + 1 * q.val = q.val; rw [h3]; omega

theorem blk1 (c : Dev nD) (t : Fin cfg0.N) (a : Fin 4) (b : Fin 3) (p q : Fin 256) :
    (iblk0 (F := Ideal) V c 1 t : S4x3x256x256.Idx → EReal) (ix4 a b p q)
      = (V c main_arg1 : Cert.Spec.Img) (ix4 (Cert.Spec.row (tile t) a) b p q) := by
  obtain ⟨h0, h1, h2, h3⟩ := idx_in1 t
  unfold iblk0
  rw [View.read_apply]
  show V c main_arg1 _ = V c main_arg1 _
  congr 1
  funext ax
  apply Fin.ext
  match ax with
  | ⟨0, _⟩ => show win0_1.index t 0 * 4 + 1 * a.val = 4 * t.val + a.val; rw [h0]; omega
  | ⟨1, _⟩ => show win0_1.index t 1 * 3 + 1 * b.val = b.val; rw [h1]; omega
  | ⟨2, _⟩ => show win0_1.index t 2 * 256 + 1 * p.val = p.val; rw [h2]; omega
  | ⟨3, _⟩ => show win0_1.index t 3 * 256 + 1 * q.val = q.val; rw [h3]; omega

theorem blk2 (c : Dev nD) (t : Fin cfg0.N) (a : Fin 4) (b : Fin 3) (p q : Fin 256) :
    (iblk0 (F := Ideal) V c 2 t : S4x3x256x256.Idx → EReal) (ix4 a b p q)
      = (V c main_arg2 : Cert.Spec.Img) (ix4 (Cert.Spec.row (tile t) a) b p q) := by
  obtain ⟨h0, h1, h2, h3⟩ := idx_in2 t
  unfold iblk0
  rw [View.read_apply]
  show V c main_arg2 _ = V c main_arg2 _
  congr 1
  funext ax
  apply Fin.ext
  match ax with
  | ⟨0, _⟩ => show win0_2.index t 0 * 4 + 1 * a.val = 4 * t.val + a.val; rw [h0]; omega
  | ⟨1, _⟩ => show win0_2.index t 1 * 3 + 1 * b.val = b.val; rw [h1]; omega
  | ⟨2, _⟩ => show win0_2.index t 2 * 256 + 1 * p.val = p.val; rw [h2]; omega
  | ⟨3, _⟩ => show win0_2.index t 3 * 256 + 1 * q.val = q.val; rw [h3]; omega

/-- So the block sums at point `t` are tile `t`'s sums of squared differences. -/
theorem tile_rec (c : Dev nD) (t : Fin cfg0.N) :
    blockSum (F := Ideal) (iblk0 V c 1 t) (iblk0 V c 2 t)
      = Cert.Spec.tileSq (V c main_arg1) (V c main_arg2) (tile t) := by
  refine (blockSum_eq _ _).trans ?_
  unfold Cert.Spec.tileSq Cert.Spec.sqDiff
  refine Finset.sum_congr rfl fun a _ => Finset.sum_congr rfl fun b _ => Finset.sum_congr rfl fun p _ =>
    Finset.sum_congr rfl fun q _ => ?_
  rw [blk1 V c t a b p q, blk2 V c t a b p q]

theorem tile_con (c : Dev nD) (t : Fin cfg0.N) :
    blockSum (F := Ideal) (iblk0 V c 0 t) (iblk0 V c 1 t)
      = Cert.Spec.tileSq (V c main_arg0) (V c main_arg1) (tile t) := by
  refine (blockSum_eq _ _).trans ?_
  unfold Cert.Spec.tileSq Cert.Spec.sqDiff
  refine Finset.sum_congr rfl fun a _ => Finset.sum_congr rfl fun b _ => Finset.sum_congr rfl fun p _ =>
    Finset.sum_congr rfl fun q _ => ?_
  rw [blk0 V c t a b p q, blk1 V c t a b p q]

end Blocks

/-! ## The accumulator, point by point -/

section Acc
variable (V : (c : Dev nD) → (b : Ref sig .tc) → Buf (Elt Ideal) ((c : Thread nD τ).loc b))

/-- The first point leaves the first tile's two sums: the zero pair just stored, plus them. -/
theorem step_A (c : Dev nD) (t : Fin cfg0.N) (h0 : t.val % 16 = 0) (q : Fin 2) :
    (outsAt0 (F := Ideal) V c t.val t.isLt : S2.Idx → EReal) (ix1 q)
      = if q.val = 0 then Cert.Spec.tileSq (V c main_arg1) (V c main_arg2) (tile t)
        else Cert.Spec.tileSq (V c main_arg0) (V c main_arg1) (tile t) := by
  rw [outsAt0_A V c t h0,
    out_A c (grid0.coords t) (ms0_0 t) (hs0_0 t) (ms0_1 t) (hs0_1 t) (ms0_2 t) (hs0_2 t) (ms0_3 t) (hs0_3 t)
      ((hcond0_0 t).mpr h0) (iblk0 V c 0 t) (iblk0 V c 1 t) (iblk0 V c 2 t)]
  refine (pay2_apply (iblk0 V c 0 t) (iblk0 V c 1 t) (iblk0 V c 2 t) (k0_pay1 (F := Ideal)) q).trans ?_
  rw [tile_rec V c t, tile_con V c t]
  show Ideal.ofBits .f32 0x00000000#32 + _ = _
  rw [Ideal.ofBits_zero_f32, zero_add]

/-- A later point adds its tile's two sums to what the point before left. -/
theorem step_B (c : Dev nD) (t : Fin cfg0.N) (h0 : ¬t.val % 16 = 0) (q : Fin 2) :
    (outsAt0 (F := Ideal) V c t.val t.isLt : S2.Idx → EReal) (ix1 q)
      = (outsAt0 (F := Ideal) V c (t.val - 1) (Nat.lt_of_le_of_lt (Nat.sub_le _ _) t.isLt) : S2.Idx → EReal) (ix1 q)
        + (if q.val = 0 then Cert.Spec.tileSq (V c main_arg1) (V c main_arg2) (tile t)
           else Cert.Spec.tileSq (V c main_arg0) (V c main_arg1) (tile t)) := by
  rw [outsAt0_B V c t h0,
    out_B c (grid0.coords t) (ms0_0 t) (hs0_0 t) (ms0_1 t) (hs0_1 t) (ms0_2 t) (hs0_2 t) (ms0_3 t) (hs0_3 t)
      (fun h => h0 ((hcond0_0 t).mp h)) (iblk0 V c 0 t) (iblk0 V c 1 t) (iblk0 V c 2 t)
      (outsAt0 V c (t.val - 1) (Nat.lt_of_le_of_lt (Nat.sub_le _ _) t.isLt))]
  refine (pay2_apply (iblk0 V c 0 t) (iblk0 V c 1 t) (iblk0 V c 2 t)
    (outsAt0 V c (t.val - 1) (Nat.lt_of_le_of_lt (Nat.sub_le _ _) t.isLt)) q).trans ?_
  rw [tile_rec V c t, tile_con V c t]

/-- Tile `k`'s sum, and zero past the last tile: partial sums then run over plain numbers. -/
def tileN (x y : Cert.Spec.Img) (k : ℕ) : EReal := if h : k < 16 then Cert.Spec.tileSq x y ⟨k, h⟩ else 0

/-- The accumulator after the first `n` tiles. -/
def accN (c : Dev nD) (n : ℕ) (q : Fin 2) : EReal :=
  if q.val = 0 then ∑ k ∈ Finset.range n, tileN (V c main_arg1) (V c main_arg2) k
  else ∑ k ∈ Finset.range n, tileN (V c main_arg0) (V c main_arg1) k

/-- After point `n` the accumulator holds the sums over tiles `0 … n`: by induction on the point. -/
theorem outsAt_eq (c : Dev nD) : ∀ (n : ℕ) (hn : n < cfg0.N) (q : Fin 2),
    (outsAt0 (F := Ideal) V c n hn : S2.Idx → EReal) (ix1 q) = accN V c (n + 1) q
  | 0, hn, q => by
    refine (step_A V c ⟨0, hn⟩ rfl q).trans ?_
    unfold accN
    by_cases hq : q.val = 0
    · rw [if_pos hq, if_pos hq, Finset.sum_range_one]; unfold tileN; rw [dif_pos (by decide)]; rfl
    · rw [if_neg hq, if_neg hq, Finset.sum_range_one]; unfold tileN; rw [dif_pos (by decide)]; rfl
  | n + 1, hn, q => by
    have hN : cfg0.N = 16 := N_0
    have hB : ¬(⟨n + 1, hn⟩ : Fin cfg0.N).val % 16 = 0 := by dsimp only; omega
    refine (step_B V c ⟨n + 1, hn⟩ hB q).trans ?_
    refine (congrArg (· + _) (outsAt_eq c n (Nat.lt_of_succ_lt hn) q)).trans ?_
    unfold accN
    by_cases hq : q.val = 0
    · rw [if_pos hq, if_pos hq, if_pos hq, Finset.sum_range_succ _ (n + 1)]
      congr 1; unfold tileN; rw [dif_pos (by omega)]; rfl
    · rw [if_neg hq, if_neg hq, if_neg hq, Finset.sum_range_succ _ (n + 1)]
      congr 1; unfold tileN; rw [dif_pos (by omega)]; rfl

/-- After all sixteen tiles: the two whole-batch sums. -/
theorem accN_last (c : Dev nD) (q : Fin 2) :
    accN V c 16 q = Cert.Spec.mseAcc (V c main_arg0) (V c main_arg1) (V c main_arg2) (ix1 q) := by
  have e : ∀ x y : Cert.Spec.Img, ∑ k ∈ Finset.range 16, tileN x y k = ∑ t : Fin 16, Cert.Spec.tileSq x y t := fun x y => by
    rw [← Fin.sum_univ_eq_sum_range (fun k => tileN x y k) 16]
    exact Finset.sum_congr rfl fun t _ => by unfold tileN; rw [dif_pos t.isLt]
  unfold accN Cert.Spec.mseAcc
  rw [e, e]

end Acc

/-! ## The result array after the pass -/

section Final
variable (V : (c : Dev nD) → (b : Ref sig .tc) → Buf (Elt Ideal) ((c : Thread nD τ).loc b))

/-- The two whole-batch sums, as contents of the result array. -/
abbrev result (c : Dev nD) : Buf (Elt Ideal) ((c : Thread nD τ).loc main_v0) :=
  Cert.Spec.mseAcc (V c main_arg0) (V c main_arg1) (V c main_arg2)

/-- What the last point leaves in the accumulator's buffer. -/
theorem last_eq (c : Dev nD) : outsAt0 (F := Ideal) V c t0_15.val t0_15.isLt = result V c := by
  funext j
  obtain ⟨q, rfl⟩ : ∃ q : Fin 2, j = ix1 q := ⟨j 0, eq_ix1 j⟩
  exact (outsAt_eq V c t0_15.val t0_15.isLt q).trans (accN_last V c q)

/-- Only the last point writes the buffer back, and its block is the whole two-entry array. -/
theorem flushed_eq (c : Dev nD) (t : Fin cfg0.N) (hf : (cfg0.win 3).flush t = true) :
    (dat0 (F := Ideal) V c).flushed 3 t = ((cfg0.win 3).blk t).view.read (Elt Ideal) (result V c) := by
  have hN : cfg0.N = 16 := N_0
  have h15 : t.val = 15 := by have := (flush0_3 t).mp hf; have := t.isLt; omega
  obtain rfl : t = t0_15 := Fin.ext h15
  show (cfg0.win 3).cut (grid0.coords t0_15) ((dat0 V c).after 3 t0_15) = _
  rw [after0_3, last_eq]
  have hz' : (fun a => win0_3.index t0_15 a * main_v0.ty.shape.size a) = fun _ => 0 :=
    funext fun a => by fin_cases a; decide
  exact (Memref.read_access_unit_zero (Elt Ideal) main_v0 hz' (fun a => by rw [congrFun hz' a]; simp) (result V c)).symm

/-- So the result array ends holding the two whole-batch sums. -/
theorem arr_result (c : Dev nD) : (dat0 (F := Ideal) V c).arrAt 3 cfg0.N = result V c :=
  (dat0 V c).arrAt_eq_of_cover 3 (result V c) (flushed_eq V c) fun i =>
    ⟨t0_15, (flush0_3 t0_15).mpr rfl, by
      show i ∈ ((View.whole main_v0).slice (win0_3.rect t0_15)).set
      rw [View.set_slice_whole, Rect.mem_set_unit]
      intro a
      have h0 : (i 0 : Nat) < 2 := (i 0).isLt
      match a with
      | ⟨0, _⟩ =>
        show win0_3.index t0_15 0 * win0_3.size 0 ≤ (i 0 : Nat)
          ∧ (i 0 : Nat) < win0_3.index t0_15 0 * win0_3.size 0 + win0_3.xsize (grid0.coords t0_15) 0
        rw [show win0_3.index t0_15 0 * win0_3.size 0 = 0 from by decide +kernel,
          show win0_3.xsize (grid0.coords t0_15) 0 = 2 from by decide +kernel]
        omega⟩

/-- The squared-error pass, read: after it the two-entry result array holds the sum over the whole batch of
    `(out_b - target)²` and of `(out_a - out_b)²`. -/
theorem arr_acc (c : Dev nD) :
    ((dat0 (F := Ideal) V c).arrAt 3 cfg0.N : (⟨1, ![2]⟩ : Shape).Idx → EReal)
      = Cert.Spec.mseAcc (V c main_arg0) (V c main_arg1) (V c main_arg2) :=
  arr_result V c

end Final

end Cert.KernelIdeal.Region0

end
-- ==== Proof.LibIndexSums.lean ====
/-
  Sums over multi-indices, over no program.

  * A sum over the indices of a rank-3 or rank-4 array is the nested sum over its coordinates (`sum_idx3`,
    `sum_idx4`): the index set is the product of the coordinate ranges.
  * A sum over `n · m` consecutive numbers is the sum, run by run, over `n` runs of `m` (`sum_runs`): the number
    `m t + a` is entry `a` of run `t`. Twice, it splits `p · q · r` numbers into their three row-major digits
    (`sum_digits3`).
  These are laws of any commutative monoid; on the extended reals they hold with no finiteness hypothesis.
-/
import Idealize.ShloMosaic.Lib.ValueIdx

namespace Cert.LibIndexSums

open Idealize.ShloMosaic Idealize.ShloMosaic.ValueIdx
open scoped BigOperators

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over a rank-4 index set is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- `n` runs of `m` consecutive numbers are the first `n · m`: number `m t + a` is entry `a` of run `t`. -/
theorem sum_runs {M : Type*} [AddCommMonoid M] (n m : ℕ) (g : Fin (n * m) → M) :
    ∑ k, g k = ∑ t : Fin n, ∑ a : Fin m, g ⟨m * t.val + a.val, by
      have := t.isLt; have := a.isLt
      calc m * t.val + a.val < m * t.val + m := by omega
        _ = m * (t.val + 1) := by ring
        _ ≤ m * n := Nat.mul_le_mul_left m (by omega)
        _ = n * m := Nat.mul_comm m n⟩ := by
  rw [← Equiv.sum_comp finProdFinEquiv g, Fintype.sum_prod_type]
  refine Finset.sum_congr rfl fun t _ => Finset.sum_congr rfl fun a _ => congrArg g (Fin.ext ?_)
  show a.val + m * t.val = m * t.val + a.val
  omega

/-- The first `p · (q · r)` numbers by their three row-major digits: number `(q r) c + r h + w`. -/
theorem sum_digits3 {M : Type*} [AddCommMonoid M] (p q r : ℕ) (g : Fin (p * (q * r)) → M) :
    ∑ k, g k = ∑ c : Fin p, ∑ h : Fin q, ∑ w : Fin r, g ⟨(q * r) * c.val + (r * h.val + w.val), by
      have := c.isLt; have := h.isLt; have := w.isLt
      have h1 : r * h.val + w.val < q * r := by
        calc r * h.val + w.val < r * h.val + r := by omega
          _ = r * (h.val + 1) := by ring
          _ ≤ r * q := Nat.mul_le_mul_left r (by omega)
          _ = q * r := Nat.mul_comm r q
      calc (q * r) * c.val + (r * h.val + w.val) < (q * r) * c.val + q * r := by omega
        _ = (q * r) * (c.val + 1) := by ring
        _ ≤ (q * r) * p := Nat.mul_le_mul_left (q * r) (by omega)
        _ = p * (q * r) := Nat.mul_comm _ _⟩ := by
  rw [sum_runs p (q * r) g]
  refine Finset.sum_congr rfl fun c _ => ?_
  exact sum_runs q r fun k => g ⟨(q * r) * c.val + k.val, _⟩

end Cert.LibIndexSums
-- ==== Proof.Leaves.lean ====
/-
  Where the two programs meet. The kernel's host program reads six quantities out of the arrays its two
  reduction passes leave (by slices and reshapes): the two sums of squared differences, per sample the three
  inner products, and the pooled features. The reference computes the same six from the argument arrays by
  whole-array reductions. Each pair is one function of the arguments:

  * a sum over all positions of the batch is the sum, tile by tile, of the tiles' sums (the index set is the
    product of its coordinate ranges, and 64 images are 16 runs of 4);
  * a sum over the `256 · 64 · 64` positions of a flattened feature map is the sum over channels, rows and
    columns (the flat position `4096 c + 64 h + w` is position `(c, h, w)`);
  * a sum over the two spatial axes, kept per sample and channel, is the double sum over rows and columns, and
    dividing it by `4096` is multiplying it by `2⁻¹²`, on every extended real.
  Only laws of a commutative monoid are used on the sums, so no input need be finite.
-/
import proofs.«140594_j31001073943294_1_alg».proof.KernelIdeal
import proofs.«140594_j31001073943294_1_alg».proof.Proof.Gen.ReferenceIdeal.Read
import proofs.«140594_j31001073943294_1_alg».proof.Proof.Spec
import proofs.«140594_j31001073943294_1_alg».proof.Proof.LibIndexSums
import Idealize.ShloMosaic.Lib.Pipeline.Value
import Idealize.ShloMosaic.Lib.ValueIdx
import Idealize.ShloMosaic.PureOps.Ideal.Laws

set_option maxRecDepth 16384

noncomputable section

namespace Cert.Leaves

open Idealize.ShloMosaic Idealize.ShloMosaic.ValueIdx Idealize.ShloMosaic.TcCoe
open Cert.Spec Cert.LibIndexSums
open scoped BigOperators

/-! ## The sums, over no program -/

/-- The sum of squared differences over the whole batch is the sum of the 16 tiles' sums. -/
theorem total_sq (x y : Img) : ∑ j, sqDiff x y j = ∑ t : Fin 16, tileSq x y t := by
  rw [sum_idx4]
  exact sum_runs 16 4 (fun n : Fin 64 => ∑ b : Fin 3, ∑ c : Fin 256, ∑ d : Fin 256, sqDiff x y (ix4 n b c d))

/-- A sum over the flat positions of one sample's feature map, read through any map `I` that sends the flat
    position `4096 c + 64 h + w` to position `(n, c, h, w)`, is the sum over channels, rows and columns. -/
theorem flat_sum (g : (⟨4, ![64, 256, 64, 64]⟩ : Shape).Idx → EReal) (n : Fin 64)
    (I : Fin 1048576 → (⟨4, ![64, 256, 64, 64]⟩ : Shape).Idx)
    (hI : ∀ (c : Fin 256) (h w : Fin 64) (hlt : (64 * 64) * c.val + (64 * h.val + w.val) < 256 * (64 * 64)),
      I ⟨(64 * 64) * c.val + (64 * h.val + w.val), hlt⟩ = ix4 n c h w) :
    ∑ k : Fin 1048576, g (I k) = ∑ c : Fin 256, ∑ h : Fin 64, ∑ w : Fin 64, g (ix4 n c h w) := by
  refine (sum_digits3 256 64 64 (fun k => g (I k))).trans ?_
  refine Finset.sum_congr rfl fun c _ => Finset.sum_congr rfl fun h _ => Finset.sum_congr rfl fun w _ => ?_
  exact congrArg g (hI c h w _)

/-! ## The squared-error sums -/

/-- The reference's squared difference at a position is the specification's. -/
theorem ref_sq (x y : Img) (j) :
    Cert.ReferenceIdeal.Read.val_main_v1 (F := Ideal) x y j = sqDiff x y j := rfl

theorem ref_sq' (x y : Img) (j) :
    Cert.ReferenceIdeal.Read.val_main_v5 (F := Ideal) x y j = sqDiff x y j := rfl

/-- Entry 0 of the accumulator, read as the kernel's host program reads it (a slice and a reshape), is the
    reference's sum of `(out_b - target)²` over every position. -/
theorem leaf_rec (oa ob tg : Img) (hs : Cert.KernelIdeal.S2.Slices ![0] Cert.KernelIdeal.S1)
    (hc : Cert.KernelIdeal.S1.ShapeCasts Cert.KernelIdeal.S_) :
    shapeCast Cert.KernelIdeal.S_ (extractStridedSlice Cert.KernelIdeal.S1 ![0] (mseAcc oa ob tg) hs) hc
      = Cert.ReferenceIdeal.Read.val_main_v2 (F := Ideal) ob tg := by
  funext i
  refine (shapeCast_apply _ _ i (ix1 (0 : Fin 1)) ?_).trans ?_
  · rw [Shape.rowMajor_val_one]
    exact (Shape.rowMajorPi_zero _ _).symm
  refine (extractStridedSlice_apply _ _ _ (ix1 (0 : Fin 1)) (ix1 (0 : Fin 2)) (fun a => by match a with | ⟨0, _⟩ => rfl)).trans ?_
  rw [Cert.ReferenceIdeal.Read.val_main_v2_apply]
  show (∑ t : Fin 16, tileSq ob tg t) = Ideal.ofBits .f32 0x00000000#32 + _
  rw [Ideal.ofBits_zero_f32, zero_add, ← total_sq]
  exact Finset.sum_congr rfl fun j _ => (ref_sq ob tg j).symm

/-- Entry 1 likewise is the reference's sum of `(out_a - out_b)²`. -/
theorem leaf_con (oa ob tg : Img) (hs : Cert.KernelIdeal.S2.Slices ![1] Cert.KernelIdeal.S1)
    (hc : Cert.KernelIdeal.S1.ShapeCasts Cert.KernelIdeal.S_) :
    shapeCast Cert.KernelIdeal.S_ (extractStridedSlice Cert.KernelIdeal.S1 ![1] (mseAcc oa ob tg) hs) hc
      = Cert.ReferenceIdeal.Read.val_main_v6 (F := Ideal) oa ob := by
  funext i
  refine (shapeCast_apply _ _ i (ix1 (0 : Fin 1)) ?_).trans ?_
  · rw [Shape.rowMajor_val_one]
    exact (Shape.rowMajorPi_zero _ _).symm
  refine (extractStridedSlice_apply _ _ _ (ix1 (0 : Fin 1)) (ix1 (1 : Fin 2)) (fun a => by match a with | ⟨0, _⟩ => rfl)).trans ?_
  rw [Cert.ReferenceIdeal.Read.val_main_v6_apply]
  show (∑ t : Fin 16, tileSq oa ob t) = Ideal.ofBits .f32 0x00000000#32 + _
  rw [Ideal.ofBits_zero_f32, zero_add, ← total_sq]
  exact Finset.sum_congr rfl fun j _ => (ref_sq' oa ob j).symm

/-! ## The inner products of the flattened feature maps -/

/-- Where the reference's reshape puts flat position `4096 c + 64 h + w` of sample `n`: at `(n, c, h, w)`. -/
theorem flat_idx (n : Fin 64) (c : Fin 256) (h w : Fin 64)
    (hlt : (64 * 64) * c.val + (64 * h.val + w.val) < 256 * (64 * 64)) :
    Cert.ReferenceIdeal.Read.idx_main_v8
        (Cert.ReferenceIdeal.Read.idx_main_v17 (ix1 n) ⟨(64 * 64) * c.val + (64 * h.val + w.val), hlt⟩)
      = ix4 n c h w := by
  have hc := c.isLt; have hh := h.isLt; have hw := w.isLt
  funext a
  match a with
  | ⟨0, _⟩ =>
    exact Fin.ext (by
      show (n.val * 1048576 + (4096 * c.val + (64 * h.val + w.val))) / 1048576 = n.val
      omega)
  | ⟨1, _⟩ =>
    exact Fin.ext (by
      show (n.val * 1048576 + (4096 * c.val + (64 * h.val + w.val))) / 4096 % 256 = c.val
      omega)
  | ⟨2, _⟩ =>
    exact Fin.ext (by
      show (n.val * 1048576 + (4096 * c.val + (64 * h.val + w.val))) / 64 % 64 = h.val
      omega)
  | ⟨3, _⟩ =>
    exact Fin.ext (by
      show (n.val * 1048576 + (4096 * c.val + (64 * h.val + w.val))) % 64 = w.val
      omega)

/-- The sum over a sample's flat positions of a product of two reshaped feature maps is their inner product. -/
theorem flat_dot (x y : Feat) (n : Fin 64) :
    ∑ k : Fin 1048576, (x (Cert.ReferenceIdeal.Read.idx_main_v8 (Cert.ReferenceIdeal.Read.idx_main_v17 (ix1 n) k))
        * y (Cert.ReferenceIdeal.Read.idx_main_v8 (Cert.ReferenceIdeal.Read.idx_main_v17 (ix1 n) k)))
      = dot3 x y n :=
  flat_sum (fun p => x p * y p) n
    (fun k => Cert.ReferenceIdeal.Read.idx_main_v8 (Cert.ReferenceIdeal.Read.idx_main_v17 (ix1 n) k))
    (fun c h w hlt => flat_idx n c h w hlt)

/-- Statistic `k` of sample `n`, read as the kernel's host program reads it (reshape, slice column `k`, reshape). -/
theorem stat_read (st : (⟨3, ![64, 1, 8]⟩ : Shape).Idx → EReal) (k : Fin 8) (n : Fin 64)
    (hc1 : Cert.KernelIdeal.S64x1x8.ShapeCasts Cert.KernelIdeal.S64x8)
    (hs : Cert.KernelIdeal.S64x8.Slices ![0, k.val] Cert.KernelIdeal.S64x1)
    (hc2 : Cert.KernelIdeal.S64x1.ShapeCasts Cert.KernelIdeal.S64) :
    shapeCast Cert.KernelIdeal.S64 (extractStridedSlice Cert.KernelIdeal.S64x1 ![0, k.val] (shapeCast Cert.KernelIdeal.S64x8 st hc1) hs) hc2 (ix1 n)
      = st (ix3 n (0 : Fin 1) k) := by
  refine (shapeCast_apply _ _ (ix1 n) (ix2 n (0 : Fin 1)) ?_).trans ?_
  · rw [Shape.rowMajor_val_two, Shape.rowMajor_val_one]
    show n.val * 1 + 0 = n.val
    omega
  refine (extractStridedSlice_apply _ _ _ (ix2 n (0 : Fin 1)) (ix2 n k) (fun a => by
    match a with
    | ⟨0, _⟩ => exact (Nat.zero_add _).symm
    | ⟨1, _⟩ => exact (Nat.add_zero _).symm)).trans ?_
  refine shapeCast_apply _ _ (ix2 n k) (ix3 n (0 : Fin 1) k) ?_
  rw [Shape.rowMajor_val_three, Shape.rowMajor_val_two]
  show (n.val * 1 + 0) * 8 + k.val = n.val * 8 + k.val
  omega

/-- Column 0 of the statistics is the reference's `⟨fa, fb⟩` over the flattened maps. -/
theorem leaf_dot (fa fb : Feat)
    (hc1 : Cert.KernelIdeal.S64x1x8.ShapeCasts Cert.KernelIdeal.S64x8)
    (hs : Cert.KernelIdeal.S64x8.Slices ![0, 0] Cert.KernelIdeal.S64x1)
    (hc2 : Cert.KernelIdeal.S64x1.ShapeCasts Cert.KernelIdeal.S64) :
    shapeCast Cert.KernelIdeal.S64 (extractStridedSlice Cert.KernelIdeal.S64x1 ![0, 0] (shapeCast Cert.KernelIdeal.S64x8 (featStats fa fb) hc1) hs) hc2
      = Cert.ReferenceIdeal.Read.val_main_v17 (F := Ideal) fa fb := by
  funext i
  obtain ⟨n, rfl⟩ : ∃ n : Fin 64, i = ix1 n := ⟨i 0, eq_ix1 i⟩
  refine (stat_read (featStats fa fb) (0 : Fin 8) n hc1 hs hc2).trans ?_
  rw [Cert.ReferenceIdeal.Read.val_main_v17_apply]
  show dot3 fa fb n = Ideal.ofBits .f32 0x00000000#32 + _
  rw [Ideal.ofBits_zero_f32, zero_add, ← flat_dot fa fb n]
  refine Finset.sum_congr rfl fun k _ => ?_
  rw [Cert.ReferenceIdeal.Read.val_main_v16_apply, Cert.ReferenceIdeal.Read.val_main_v8_apply, Cert.ReferenceIdeal.Read.val_main_v9_apply]
  rfl

/-- Column 1 is the reference's `⟨fa, fa⟩` (the square of its norm). -/
theorem leaf_na (fa fb : Feat)
    (hc1 : Cert.KernelIdeal.S64x1x8.ShapeCasts Cert.KernelIdeal.S64x8)
    (hs : Cert.KernelIdeal.S64x8.Slices ![0, 1] Cert.KernelIdeal.S64x1)
    (hc2 : Cert.KernelIdeal.S64x1.ShapeCasts Cert.KernelIdeal.S64) :
    shapeCast Cert.KernelIdeal.S64 (extractStridedSlice Cert.KernelIdeal.S64x1 ![0, 1] (shapeCast Cert.KernelIdeal.S64x8 (featStats fa fb) hc1) hs) hc2
      = Cert.ReferenceIdeal.Read.val_main_call0_v1 (F := Ideal) fa := by
  funext i
  obtain ⟨n, rfl⟩ : ∃ n : Fin 64, i = ix1 n := ⟨i 0, eq_ix1 i⟩
  refine (stat_read (featStats fa fb) (1 : Fin 8) n hc1 hs hc2).trans ?_
  rw [Cert.ReferenceIdeal.Read.val_main_call0_v1_apply]
  show dot3 fa fa n = Ideal.ofBits .f32 0x00000000#32 + _
  rw [Ideal.ofBits_zero_f32, zero_add, ← flat_dot fa fa n]
  refine Finset.sum_congr rfl fun k _ => ?_
  rw [Cert.ReferenceIdeal.Read.val_main_call0_v0_apply, Cert.ReferenceIdeal.Read.val_main_v8_apply]
  rfl

/-- Column 2 is the reference's `⟨fb, fb⟩`. -/
theorem leaf_nb (fa fb : Feat)
    (hc1 : Cert.KernelIdeal.S64x1x8.ShapeCasts Cert.KernelIdeal.S64x8)
    (hs : Cert.KernelIdeal.S64x8.Slices ![0, 2] Cert.KernelIdeal.S64x1)
    (hc2 : Cert.KernelIdeal.S64x1.ShapeCasts Cert.KernelIdeal.S64) :
    shapeCast Cert.KernelIdeal.S64 (extractStridedSlice Cert.KernelIdeal.S64x1 ![0, 2] (shapeCast Cert.KernelIdeal.S64x8 (featStats fa fb) hc1) hs) hc2
      = Cert.ReferenceIdeal.Read.val_main_call1_v1 (F := Ideal) fb := by
  funext i
  obtain ⟨n, rfl⟩ : ∃ n : Fin 64, i = ix1 n := ⟨i 0, eq_ix1 i⟩
  refine (stat_read (featStats fa fb) (2 : Fin 8) n hc1 hs hc2).trans ?_
  rw [Cert.ReferenceIdeal.Read.val_main_call1_v1_apply]
  show dot3 fb fb n = Ideal.ofBits .f32 0x00000000#32 + _
  rw [Ideal.ofBits_zero_f32, zero_add, ← flat_dot fb fb n]
  refine Finset.sum_congr rfl fun k _ => ?_
  rw [Cert.ReferenceIdeal.Read.val_main_call1_v0_apply, Cert.ReferenceIdeal.Read.val_main_v9_apply]
  rfl

/-! ## The pooled features -/

/-- `4096.0`, the reference's divisor, denotes the real `4096`. -/
theorem ofBits_4096 : Ideal.ofBits .f32 0x45800000#32 = ((4096 : ℝ) : EReal) := by
  simp [Ideal.ofBits, Ideal.ieee, -EReal.coe_mul]; norm_num

/-- `2⁻¹²`, the kernel's factor, denotes the real `1 / 4096`. -/
theorem ofBits_inv4096 : Ideal.ofBits .f32 0x39800000#32 = ((1 / 4096 : ℝ) : EReal) := by
  simp [Ideal.ofBits, Ideal.ieee, -EReal.coe_mul]; norm_num

/-- The host's sum over the two spatial axes, kept per sample and channel, is the spatial sum: of all positions,
    those that the reduction sends to `(n, c)` are the `(n, c, h, w)`. -/
theorem spatial_sum (fb : Feat)
    (h' : (⟨4, ![64, 256, 64, 64]⟩ : Shape).ReducesTo [2, 3] ⟨2, ![64, 256]⟩) (init : EReal) (n : Fin 64) (c : Fin 256) :
    Ideal.hostReduceAdd h' fb init (ix2 n c) = init + spatial fb n c := by
  unfold Ideal.hostReduceAdd
  refine congrArg (init + ·) ?_
  have key : ∀ (n' : Fin 64) (c' : Fin 256) (h w : Fin 64),
      (h'.drop (ix4 n' c' h w) = ix2 n c) ↔ (n' = n ∧ c' = c) := by
    intro n' c' h w
    constructor
    · intro e
      have e0 : (h'.drop (ix4 n' c' h w) 0).val = ((ix2 n c : (⟨2, ![64, 256]⟩ : Shape).Idx) 0).val := by rw [e]
      have e1 : (h'.drop (ix4 n' c' h w) 1).val = ((ix2 n c : (⟨2, ![64, 256]⟩ : Shape).Idx) 1).val := by rw [e]
      exact ⟨Fin.ext e0, Fin.ext e1⟩
    · rintro ⟨rfl, rfl⟩
      funext b
      match b with
      | ⟨0, _⟩ => exact Fin.ext rfl
      | ⟨1, _⟩ => exact Fin.ext rfl
  rw [Finset.sum_filter, sum_idx4]
  simp only [key]
  rw [Finset.sum_eq_single n (fun n' _ hne => Finset.sum_eq_zero fun c' _ => Finset.sum_eq_zero fun h _ =>
      Finset.sum_eq_zero fun w _ => if_neg fun e => hne e.1) (fun hn => absurd (Finset.mem_univ _) hn)]
  rw [Finset.sum_eq_single c (fun c' _ hne => Finset.sum_eq_zero fun h _ =>
      Finset.sum_eq_zero fun w _ => if_neg fun e => hne e.2) (fun hn => absurd (Finset.mem_univ _) hn)]
  exact Finset.sum_congr rfl fun h _ => Finset.sum_congr rfl fun w _ => if_pos ⟨rfl, rfl⟩

/-- The pooled array, reshaped as the kernel's host program reshapes it, is the reference's spatial mean: the
    reference divides the spatial sum by `4096`, the kernel multiplies it by `2⁻¹²`, one number on every extended real. -/
theorem leaf_gap (fb : Feat) (hc : Cert.KernelIdeal.S64x1x256.ShapeCasts Cert.KernelIdeal.S64x256) :
    shapeCast Cert.KernelIdeal.S64x256 (featGap fb) hc = Cert.ReferenceIdeal.Read.val_main_v25 (F := Ideal) fb := by
  funext i
  obtain ⟨n, c, rfl⟩ : ∃ (n : Fin 64) (c : Fin 256), i = ix2 n c := ⟨i 0, i 1, eq_ix2 i⟩
  refine (shapeCast_apply _ _ (ix2 n c) (ix3 n (0 : Fin 1) c) ?_).trans ?_
  · rw [Shape.rowMajor_val_three, Shape.rowMajor_val_two]
    show (n.val * 1 + 0) * 256 + c.val = n.val * 256 + c.val
    omega
  rw [Cert.ReferenceIdeal.Read.val_main_v25_apply, Cert.ReferenceIdeal.Read.val_main_v24_apply,
    Cert.ReferenceIdeal.Read.val_main_cst_10_apply]
  unfold Cert.ReferenceIdeal.Read.val_main_v23
  simp only [Host.reduceAdd, Ideal.hostReduceAdd_def, Ideal.hostDivf_def]
  rw [spatial_sum]
  show spatial fb n c * Ideal.ofBits .f32 0x39800000#32
    = Ideal.div (Ideal.ofBits .f32 0x00000000#32 + spatial fb n c) (Ideal.ofBits .f32 0x45800000#32)
  rw [Ideal.ofBits_zero_f32, zero_add, ofBits_4096, ofBits_inv4096, Ideal.div_coe (by norm_num : (4096 : ℝ) ≠ 0)]

end Cert.Leaves

end
-- ==== Proof.KBound.lean ====
/-
  What the idealized kernel's host operations find when they read the buffers its two reduction passes leave.

  Between the two passes the host program reads the two-entry accumulator of the squared-error pass, entry by entry,
  and divides each by the number of positions of the batch; the arguments are untouched by both, so the feature pass
  and the host operations after it find them as launched. Read through the specification of the first pass, the two
  quotients are the reference's: the sum of squared differences over every position, divided by the same constant.
-/
import proofs.«140594_j31001073943294_1_alg».proof.Proof.Gen.KernelIdeal.Frame
import proofs.«140594_j31001073943294_1_alg».proof.Proof.Region0
import proofs.«140594_j31001073943294_1_alg».proof.Proof.Leaves
import Idealize.ShloMosaic.Lib.StableHlo.Run

set_option maxRecDepth 16384

noncomputable section

namespace Cert.KernelIdeal.KBound

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- Argument 3 is as launched when the feature pass is entered: the squared-error pass and the host operations after
    it write other buffers. -/
theorem W2_arg3 : W2 m ρ c (Proc.devRef .tc main_arg3) = m ((c : Thread nD τ).loc main_arg3) :=
  calc W2 m ρ c (Proc.devRef .tc main_arg3)
    _ = W1 m ρ c (Proc.devRef .tc main_arg3) := StableHlo.after_of_forall_not_mem (b := Proc.devRef .tc main_arg3) _ _ (List.forall_iff_forall_mem.mp (by
          simp only [hostOps1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W0 m ρ c (Proc.devRef .tc main_arg3) := W1_of_ne m ρ c main_arg3 (by decide)
    _ = m ((c : Thread nD τ).loc main_arg3) := rfl

/-- Argument 4 is as launched when the feature pass is entered: the squared-error pass and the host operations after
    it write other buffers. -/
theorem W2_arg4 : W2 m ρ c (Proc.devRef .tc main_arg4) = m ((c : Thread nD τ).loc main_arg4) :=
  calc W2 m ρ c (Proc.devRef .tc main_arg4)
    _ = W1 m ρ c (Proc.devRef .tc main_arg4) := StableHlo.after_of_forall_not_mem (b := Proc.devRef .tc main_arg4) _ _ (List.forall_iff_forall_mem.mp (by
          simp only [hostOps1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W0 m ρ c (Proc.devRef .tc main_arg4) := W1_of_ne m ρ c main_arg4 (by decide)
    _ = m ((c : Thread nD τ).loc main_arg4) := rfl

/-- Argument 5 is as launched when the feature pass is entered: the squared-error pass and the host operations after
    it write other buffers. -/
theorem W2_arg5 : W2 m ρ c (Proc.devRef .tc main_arg5) = m ((c : Thread nD τ).loc main_arg5) :=
  calc W2 m ρ c (Proc.devRef .tc main_arg5)
    _ = W1 m ρ c (Proc.devRef .tc main_arg5) := StableHlo.after_of_forall_not_mem (b := Proc.devRef .tc main_arg5) _ _ (List.forall_iff_forall_mem.mp (by
          simp only [hostOps1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W0 m ρ c (Proc.devRef .tc main_arg5) := W1_of_ne m ρ c main_arg5 (by decide)
    _ = m ((c : Thread nD τ).loc main_arg5) := rfl

/-- The labels are as launched after the feature pass too. -/
theorem W3_arg5 : W3 m ρ c (Proc.devRef .tc main_arg5) = m ((c : Thread nD τ).loc main_arg5) :=
  (W3_of_ne m ρ c main_arg5 (by decide)).trans (W2_arg5 m ρ c)

/-- After the squared-error pass its output array holds the two sums over all 16 tiles. -/
theorem W1_v0 : W1 m ρ c (Proc.devRef .tc main_v0)
    = Cert.Spec.mseAcc (m ((c : Thread nD τ).loc main_arg0)) (m ((c : Thread nD τ).loc main_arg1)) (m ((c : Thread nD τ).loc main_arg2)) :=
  (W1_arr m ρ c 3).trans (Cert.KernelIdeal.Region0.arr_acc (V0 m ρ) c)

/-- The reconstruction term: entry 0 of the accumulator over the number of positions is the reference's mean of
    `(out_b - target)²`. -/
theorem W2_v5 : (W2 m ρ c (Proc.devRef .tc main_v5) : (⟨S_, .f32⟩ : BufTy).Contents (Elt Ideal))
    = Host.divf (F := Ideal) (Cert.ReferenceIdeal.Read.val_main_v2 (F := Ideal) (m ((c : Thread nD τ).loc main_arg1)) (m ((c : Thread nD τ).loc main_arg2)))
        (constant S_ .f32 0x4B400000#32) := by
  show StableHlo.after hostOps1 (W1 m ρ c) (Proc.devRef .tc main_v5) = _
  have h0 := W1_v0 m ρ c
  generalize W1 m ρ c = Wv at h0 ⊢
  after_results_simp
  rw [h0]
  exact congrArg (fun x => Host.divf (F := Ideal) x (constant S_ .f32 0x4B400000#32)) (Cert.Leaves.leaf_rec _ _ _ _ _)

/-- The consistency term: entry 1 likewise is the reference's mean of `(out_a - out_b)²`. -/
theorem W2_v6 : (W2 m ρ c (Proc.devRef .tc main_v6) : (⟨S_, .f32⟩ : BufTy).Contents (Elt Ideal))
    = Host.divf (F := Ideal) (Cert.ReferenceIdeal.Read.val_main_v6 (F := Ideal) (m ((c : Thread nD τ).loc main_arg0)) (m ((c : Thread nD τ).loc main_arg1)))
        (constant S_ .f32 0x4B400000#32) := by
  show StableHlo.after hostOps1 (W1 m ρ c) (Proc.devRef .tc main_v6) = _
  have h0 := W1_v0 m ρ c
  generalize W1 m ρ c = Wv at h0 ⊢
  after_results_simp
  rw [h0]
  exact congrArg (fun x => Host.divf (F := Ideal) x (constant S_ .f32 0x4B400000#32)) (Cert.Leaves.leaf_con _ _ _ _ _)

/-- Both quotients pass the feature pass untouched. -/
theorem W3_v5 : (W3 m ρ c (Proc.devRef .tc main_v5) : (⟨S_, .f32⟩ : BufTy).Contents (Elt Ideal))
    = Host.divf (F := Ideal) (Cert.ReferenceIdeal.Read.val_main_v2 (F := Ideal) (m ((c : Thread nD τ).loc main_arg1)) (m ((c : Thread nD τ).loc main_arg2)))
        (constant S_ .f32 0x4B400000#32) :=
  (W3_of_ne m ρ c main_v5 (by decide)).trans (W2_v5 m ρ c)

theorem W3_v6 : (W3 m ρ c (Proc.devRef .tc main_v6) : (⟨S_, .f32⟩ : BufTy).Contents (Elt Ideal))
    = Host.divf (F := Ideal) (Cert.ReferenceIdeal.Read.val_main_v6 (F := Ideal) (m ((c : Thread nD τ).loc main_arg0)) (m ((c : Thread nD τ).loc main_arg1)))
        (constant S_ .f32 0x4B400000#32) :=
  (W3_of_ne m ρ c main_v6 (by decide)).trans (W2_v6 m ρ c)

end Cert.KernelIdeal.KBound

end
-- ==== Proof.Region1.lean ====
/-
  The feature pass, read as mathematics. The pass visits the 64 samples one per grid point. At sample `t` it holds
  the two feature maps `fa`, `fb` of that sample, each 256 channels over 64 × 64 positions, and leaves

  * in row `t` of the statistics array the three inner products `⟨fa, fb⟩`, `⟨fa, fa⟩`, `⟨fb, fb⟩` — each taken as
    a sum over the columns, then over the rows, then over the channels of the elementwise product — followed by
    five zeros;
  * in row `t` of the pooled array, per channel, the sum of `fb` over columns and then rows, times the constant
    `2⁻¹²`.

  A sum over one axis of a vector is, at the extended reals, the finite sum over that axis's coordinates; nested, the
  three sums are the triple sum the specification writes, in the same order, so no rearrangement is needed and no
  finiteness either. The block a point reads is row `t` of the argument array (block index `(t, 0, 0, 0)` of blocks
  of one sample), and the block it writes is row `t` of the output array; the 64 rows tile each output array, so
  after the last point each array is the specification's function of the two feature arrays, at whatever contents
  `V` the arrays had when the pass began.
-/
import proofs.«140594_j31001073943294_1_alg».proof.Proof.Gen.KernelIdeal.Frame
import proofs.«140594_j31001073943294_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Region1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen
open scoped BigOperators

/-! ## Indices with one coordinate inserted -/

theorem lift_w (c : Fin 256) (h : Fin 64) (w : Fin 64) :
    reduces_S256x64x64_S256x64.lift (ix2 c h) w = ix3 c h w := by
  funext d; apply Fin.ext
  match d with
  | ⟨0, _⟩ => rfl
  | ⟨1, _⟩ => rfl
  | ⟨2, _⟩ => rfl

theorem lift_h (c : Fin 256) (h : Fin 64) :
    reduces_S256x64_S256.lift (ix1 c) h = ix2 c h := by
  funext d; apply Fin.ext
  match d with
  | ⟨0, _⟩ => rfl
  | ⟨1, _⟩ => rfl

theorem lift_c (u : Fin 1) (c : Fin 256) :
    reduces_S1x256_S1.lift (ix1 u) c = ix2 u c := by
  funext d; apply Fin.ext
  match d with
  | ⟨0, _⟩ => rfl
  | ⟨1, _⟩ => rfl

/-! ## The two inner sums: over columns, then over rows -/

theorem col_sum (v : FVec Ideal S256x64x64 .f32) (c : Fin 256) (h : Fin 64) :
    multiReduction (F := Ideal) .add [2] S256x64 v 0x00000000#32 reduces_S256x64x64_S256x64 (.inl rfl) rfl (ix2 c h)
      = ∑ w : Fin 64, v (ix3 c h w) :=
  (Ideal.multiReduction_add_single v 0x00000000#32 reduces_S256x64x64_S256x64 (.inl rfl) rfl (ix2 c h)).trans
    (Finset.sum_congr rfl fun w _ => congrArg v (lift_w c h w))

theorem rowcol_sum (v : FVec Ideal S256x64x64 .f32) (c : Fin 256) :
    multiReduction (F := Ideal) .add [1] S256
        (multiReduction (F := Ideal) .add [2] S256x64 v 0x00000000#32 reduces_S256x64x64_S256x64 (.inl rfl) rfl)
        0x00000000#32 reduces_S256x64_S256 (.inl rfl) rfl (ix1 c)
      = ∑ h : Fin 64, ∑ w : Fin 64, v (ix3 c h w) :=
  (Ideal.multiReduction_add_single _ 0x00000000#32 reduces_S256x64_S256 (.inl rfl) rfl (ix1 c)).trans
    (Finset.sum_congr rfl fun h _ => (congrArg _ (lift_h c h)).trans (col_sum v c h))

/-! ## Layout steps read at an index -/

theorem shapeCast_a_11a_apply {α : Type} {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_one, Shape.rowMajor_val_three]
    show i.val = (u.val * 1 + v.val) * a + i.val
    simp [hu, hv])

theorem extractAt_00 {α : Type} (x : S1x1.Idx → α) (h : ∀ a, (![0, 0] : Fin 2 → Nat) a < S1x1.size a) :
    extractAt ![0, 0] x h = x (ix2 (0 : Fin 1) (0 : Fin 1)) :=
  congrArg x (funext fun a => by
    match a with
    | ⟨0, _⟩ => rfl
    | ⟨1, _⟩ => rfl)

/-- The sum of a [256,64,64] vector over all three axes, as the body takes it: columns, rows, then channels. -/
theorem total_sum (v : FVec Ideal S256x64x64 .f32) :
    extractAt ![0, 0]
        (shapeCast S1x1
          (multiReduction (F := Ideal) .add [1] S1
            (shapeCast S1x256
              (multiReduction (F := Ideal) .add [1] S256
                (multiReduction (F := Ideal) .add [2] S256x64 v 0x00000000#32 reduces_S256x64x64_S256x64 (.inl rfl) rfl)
                0x00000000#32 reduces_S256x64_S256 (.inl rfl) rfl)
              shapeCasts_S256_S1x256)
            0x00000000#32 reduces_S1x256_S1 (.inl rfl) rfl)
          shapeCasts_S1_S1x1)
        inpos_S1x1_p0_0
      = ∑ c : Fin 256, ∑ h : Fin 64, ∑ w : Fin 64, v (ix3 c h w) := by
  refine (extractAt_00 _ _).trans ?_
  refine (shapeCast_a_1a_apply _ shapeCasts_S1_S1x1 (0 : Fin 1) (0 : Fin 1)).trans ?_
  refine (Ideal.multiReduction_add_single _ 0x00000000#32 reduces_S1x256_S1 (.inl rfl) rfl (ix1 (0 : Fin 1))).trans ?_
  refine Finset.sum_congr rfl fun c _ => ?_
  refine (congrArg _ (lift_c 0 c)).trans ?_
  refine (shapeCast_a_1a_apply _ shapeCasts_S256_S1x256 (0 : Fin 1) c).trans ?_
  exact rowcol_sum v c

/-! ## The eight statistics laid end to end -/

theorem cat_apply (a b c : FVec Ideal S1 .f32) (z : FVec Ideal S5 .f32) (k : Fin 8) :
    concatenate S8 0 [⟨S1, a⟩, ⟨S1, b⟩, ⟨S1, c⟩, ⟨S5, z⟩] concatenates_S1_S1_S1_S5_S8_d0 (ix1 k)
      = if k.val = 0 then a (ix1 (0 : Fin 1)) else if k.val = 1 then b (ix1 (0 : Fin 1))
        else if k.val = 2 then c (ix1 (0 : Fin 1)) else z (ix1 (⟨k.val - 3, by omega⟩ : Fin 5)) := by
  have hoff : ∀ (s : Shape) (hr : s.rank = S8.rank) (hs : s.rank = 1) (i : s.Idx) (b : Fin s.rank),
      b.cast hr ≠ (0 : Fin S8.rank) → (i b).val = ((ix1 k : S8.Idx) (b.cast hr)).val := fun s hr hs i b hb =>
    (hb (Fin.ext (by have := b.isLt; show b.val = 0; omega))).elim
  by_cases h0 : k.val = 0
  · rw [if_pos h0]
    exact concatenate_apply_piece (t := S8) 0 [⟨S1, a⟩, ⟨S1, b⟩, ⟨S1, c⟩, ⟨S5, z⟩] concatenates_S1_S1_S1_S5_S8_d0 (ix1 k) 0 (by show (0 : ℕ) < 4; omega) S1 a rfl rfl 0 rfl (ix1 (0 : Fin 1)) (hoff S1 rfl rfl _)
      (by show 0 + 0 = k.val; omega)
  rw [if_neg h0]
  by_cases h1 : k.val = 1
  · rw [if_pos h1]
    exact concatenate_apply_piece (t := S8) 0 [⟨S1, a⟩, ⟨S1, b⟩, ⟨S1, c⟩, ⟨S5, z⟩] concatenates_S1_S1_S1_S5_S8_d0 (ix1 k) 1 (by show (1 : ℕ) < 4; omega) S1 b rfl rfl 1 rfl (ix1 (0 : Fin 1)) (hoff S1 rfl rfl _)
      (by show 1 + 0 = k.val; omega)
  rw [if_neg h1]
  by_cases h2 : k.val = 2
  · rw [if_pos h2]
    exact concatenate_apply_piece (t := S8) 0 [⟨S1, a⟩, ⟨S1, b⟩, ⟨S1, c⟩, ⟨S5, z⟩] concatenates_S1_S1_S1_S5_S8_d0 (ix1 k) 2 (by show (2 : ℕ) < 4; omega) S1 c rfl rfl 2 rfl (ix1 (0 : Fin 1)) (hoff S1 rfl rfl _)
      (by show 2 + 0 = k.val; omega)
  rw [if_neg h2]
  exact concatenate_apply_piece (t := S8) 0 [⟨S1, a⟩, ⟨S1, b⟩, ⟨S1, c⟩, ⟨S5, z⟩] concatenates_S1_S1_S1_S5_S8_d0 (ix1 k) 3 (by show (3 : ℕ) < 4; omega) S5 z rfl rfl 3 rfl (ix1 (⟨k.val - 3, by omega⟩ : Fin 5)) (hoff S5 rfl rfl _)
    (by show 3 + (k.val - 3) = k.val; omega)

/-! ## What the body stores, read at an index -/

/-- The statistics of one sample's block: the three inner products over channels, rows and columns, then zeros. -/
def blockStat (x0 x1 : Vec Ideal S1x256x64x64 .f32) (k : ℕ) : EReal :=
  if k = 0 then ∑ c : Fin 256, ∑ h : Fin 64, ∑ w : Fin 64, x0 (ix4 (0 : Fin 1) c h w) * x1 (ix4 (0 : Fin 1) c h w)
  else if k = 1 then ∑ c : Fin 256, ∑ h : Fin 64, ∑ w : Fin 64, x0 (ix4 (0 : Fin 1) c h w) * x0 (ix4 (0 : Fin 1) c h w)
  else if k = 2 then ∑ c : Fin 256, ∑ h : Fin 64, ∑ w : Fin 64, x1 (ix4 (0 : Fin 1) c h w) * x1 (ix4 (0 : Fin 1) c h w)
  else 0

theorem pay2_apply (x : Vec Ideal S1x256x64x64 .f32) (c : Fin 256) (h w : Fin 64) :
    k1_pay2 x (ix3 c h w) = x (ix4 (0 : Fin 1) c h w) :=
  shapeCast_1abc_abc_apply x shapeCasts_S1x256x64x64_S256x64x64 c h w

theorem sum_mul (x y : Vec Ideal S1x256x64x64 .f32) :
    (∑ c : Fin 256, ∑ h : Fin 64, ∑ w : Fin 64, mulf (F := Ideal) (k1_pay2 x) (k1_pay2 y) (ix3 c h w))
      = ∑ c : Fin 256, ∑ h : Fin 64, ∑ w : Fin 64, x (ix4 (0 : Fin 1) c h w) * y (ix4 (0 : Fin 1) c h w) :=
  Finset.sum_congr rfl fun c _ => Finset.sum_congr rfl fun h _ => Finset.sum_congr rfl fun w _ => by
    rw [mulf_apply, pay2_apply, pay2_apply]

theorem pay4_apply (x0 x1 : Vec Ideal S1x256x64x64 .f32) (u v : Fin 1) (k : Fin 8) :
    k1_pay4 x0 x1 (ix3 u v k) = blockStat x0 x1 k.val := by
  unfold k1_pay4
  refine (shapeCast_a_11a_apply _ shapeCasts_S8_S1x1x8 u v k).trans ?_
  refine (cat_apply _ _ _ _ k).trans ?_
  unfold blockStat
  refine if_congr Iff.rfl ?_ (if_congr Iff.rfl ?_ (if_congr Iff.rfl ?_ ?_))
  · exact (total_sum _).trans (sum_mul x0 x1)
  · exact (total_sum _).trans (sum_mul x0 x0)
  · exact (total_sum _).trans (sum_mul x1 x1)
  · exact Ideal.ofBits_zero_f32

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The pooled payload at channel `c`: the block's sum over rows and columns, times the constant. -/
theorem pay13_apply (x : Vec Ideal S1x256x64x64 .f32) (u v : Fin 1) (c : Fin 256) :
    k1_pay1 (k1_pay3 x) (ix3 u v c)
      = (∑ h : Fin 64, ∑ w : Fin 64, x (ix4 (0 : Fin 1) c h w)) * Ideal.ofBits .f32 0x39800000#32 := by
  unfold k1_pay1
  refine (shapeCast_a_11a_apply _ shapeCasts_S256_S1x1x256 u v c).trans ?_
  show k1_pay3 x (ix1 c) * Ideal.ofBits .f32 0x39800000#32 = _
  refine congrArg (· * Ideal.ofBits .f32 0x39800000#32) ?_
  unfold k1_pay3
  refine (rowcol_sum (k1_pay2 x) c).trans ?_
  exact Finset.sum_congr rfl fun h _ => Finset.sum_congr rfl fun w _ => pay2_apply x c h w

/-! ## The blocks, as rows of the argument arrays -/

variable (V : (c : Dev nD) → (b : Ref sig .tc) → Buf (Elt Ideal) ((c : Thread nD τ).loc b))

/-- Grid point `t` as a sample number. -/
def pt (t : Fin cfg1.N) : Fin 64 := ⟨t.val, lt_of_lt_of_eq t.isLt N_1⟩

/-- The index maps, decided over the grid: every window's block index at point `t` is `(t, 0, …)`. -/
theorem idx_facts : ∀ t : Fin cfg1.N,
    win1_0.index t (0 : Fin 4) = t.val ∧ win1_0.index t (1 : Fin 4) = 0 ∧ win1_0.index t (2 : Fin 4) = 0 ∧ win1_0.index t (3 : Fin 4) = 0
    ∧ win1_1.index t (0 : Fin 4) = t.val ∧ win1_1.index t (1 : Fin 4) = 0 ∧ win1_1.index t (2 : Fin 4) = 0 ∧ win1_1.index t (3 : Fin 4) = 0
    ∧ win1_2.index t (0 : Fin 3) = t.val ∧ win1_2.index t (1 : Fin 3) = 0 ∧ win1_2.index t (2 : Fin 3) = 0
    ∧ win1_3.index t (0 : Fin 3) = t.val ∧ win1_3.index t (1 : Fin 3) = 0 ∧ win1_3.index t (2 : Fin 3) = 0 :=
  (by decide +kernel : ∀ t : Fin grid1.N, _)

/-- Window 0's block at point `t` is sample `t` of the first feature array. -/
theorem iblkA_apply (c : Dev nD) (t : Fin cfg1.N) (u : Fin 1) (ch : Fin 256) (h w : Fin 64) :
    (iblk1 (F := Ideal) V c 0 t : Vec Ideal S1x256x64x64 .f32) (ix4 u ch h w)
      = (V c main_arg3 : Cert.Spec.Feat) (ix4 (pt t) ch h w) := by
  obtain ⟨e0, e1, e2, e3, -⟩ := idx_facts t
  have hu : u.val = 0 := by omega
  unfold iblk1
  rw [View.read_apply]
  show V c main_arg3 _ = V c main_arg3 _
  refine congrArg (V c main_arg3) ?_
  funext a; apply Fin.ext
  match a with
  | ⟨0, _⟩ => show win1_0.index t (0 : Fin 4) * 1 + 1 * u.val = t.val; rw [e0, hu]; omega
  | ⟨1, _⟩ => show win1_0.index t (1 : Fin 4) * 256 + 1 * ch.val = ch.val; rw [e1]; omega
  | ⟨2, _⟩ => show win1_0.index t (2 : Fin 4) * 64 + 1 * h.val = h.val; rw [e2]; omega
  | ⟨3, _⟩ => show win1_0.index t (3 : Fin 4) * 64 + 1 * w.val = w.val; rw [e3]; omega

/-- Window 1's block at point `t` is sample `t` of the second feature array. -/
theorem iblkB_apply (c : Dev nD) (t : Fin cfg1.N) (u : Fin 1) (ch : Fin 256) (h w : Fin 64) :
    (iblk1 (F := Ideal) V c 1 t : Vec Ideal S1x256x64x64 .f32) (ix4 u ch h w)
      = (V c main_arg4 : Cert.Spec.Feat) (ix4 (pt t) ch h w) := by
  obtain ⟨-, -, -, -, e0, e1, e2, e3, -⟩ := idx_facts t
  have hu : u.val = 0 := by omega
  unfold iblk1
  rw [View.read_apply]
  show V c main_arg4 _ = V c main_arg4 _
  refine congrArg (V c main_arg4) ?_
  funext a; apply Fin.ext
  match a with
  | ⟨0, _⟩ => show win1_1.index t (0 : Fin 4) * 1 + 1 * u.val = t.val; rw [e0, hu]; omega
  | ⟨1, _⟩ => show win1_1.index t (1 : Fin 4) * 256 + 1 * ch.val = ch.val; rw [e1]; omega
  | ⟨2, _⟩ => show win1_1.index t (2 : Fin 4) * 64 + 1 * h.val = h.val; rw [e2]; omega
  | ⟨3, _⟩ => show win1_1.index t (3 : Fin 4) * 64 + 1 * w.val = w.val; rw [e3]; omega

/-! ## What one point writes back -/

/-- One sample's block statistics are the specification's statistics of that sample. -/
theorem blockStat_eq (c : Dev nD) (t : Fin cfg1.N) (k : ℕ) :
    blockStat (iblk1 (F := Ideal) V c 0 t) (iblk1 (F := Ideal) V c 1 t) k
      = Cert.Spec.statAt (V c main_arg3) (V c main_arg4) (pt t) k := by
  unfold blockStat Cert.Spec.statAt Cert.Spec.dot3
  refine if_congr Iff.rfl ?_ (if_congr Iff.rfl ?_ (if_congr Iff.rfl ?_ rfl))
  · exact Finset.sum_congr rfl fun ch _ => Finset.sum_congr rfl fun h _ => Finset.sum_congr rfl fun w _ =>
      congrArg₂ (· * ·) (iblkA_apply V c t 0 ch h w) (iblkB_apply V c t 0 ch h w)
  · exact Finset.sum_congr rfl fun ch _ => Finset.sum_congr rfl fun h _ => Finset.sum_congr rfl fun w _ =>
      congrArg₂ (· * ·) (iblkA_apply V c t 0 ch h w) (iblkA_apply V c t 0 ch h w)
  · exact Finset.sum_congr rfl fun ch _ => Finset.sum_congr rfl fun h _ => Finset.sum_congr rfl fun w _ =>
      congrArg₂ (· * ·) (iblkB_apply V c t 0 ch h w) (iblkB_apply V c t 0 ch h w)

/-- The specification's statistics array at an index whose sample is `n` and whose last coordinate is `k`. -/
theorem featStats_at (fa fb : Cert.Spec.Feat) (j : S64x1x8.Idx) (n : Fin 64) (k : ℕ)
    (h0 : (j 0).val = n.val) (h2 : (j 2).val = k) :
    Cert.Spec.featStats fa fb j = Cert.Spec.statAt fa fb n k := by
  unfold Cert.Spec.featStats
  have e : (⟨(j 0).val, (j 0).isLt⟩ : Fin 64) = n := Fin.ext h0
  rw [e, h2]

/-- The specification's pooled array at an index whose sample is `n` and whose channel is `ch`. -/
theorem featGap_at (fb : Cert.Spec.Feat) (j : S64x1x256.Idx) (n : Fin 64) (ch : Fin 256)
    (h0 : (j 0).val = n.val) (h2 : (j 2).val = ch.val) :
    Cert.Spec.featGap fb j = Cert.Spec.spatial fb n ch * Ideal.ofBits .f32 0x39800000#32 := by
  unfold Cert.Spec.featGap
  have e0 : (⟨(j 0).val, (j 0).isLt⟩ : Fin 64) = n := Fin.ext h0
  have e2 : (⟨(j 2).val, (j 2).isLt⟩ : Fin 256) = ch := Fin.ext h2
  rw [e0, e2]

/-- Point `t` writes back block `t` of the statistics array. -/
theorem flushed_stats (c : Dev nD) (t : Fin cfg1.N) :
    (dat1 (F := Ideal) V c).flushed 2 t
      = ((cfg1.win 2).blk t).view.read (Elt Ideal) (Cert.Spec.featStats (V c main_arg3) (V c main_arg4)) := by
  show (cfg1.win 2).cut (grid1.coords t) ((dat1 V c).after 2 t) = _
  rw [after1_2]
  unfold out1_2
  rw [View.canon_unit_zero hz3]
  simp only [View.ld_unit_zero (S := S1x256x64x64) hz4]
  obtain ⟨-, -, -, -, -, -, -, -, e0, e1, e2, -⟩ := idx_facts t
  show (k1_pay4 (iblk1 V c 0 t) (iblk1 V c 1 t) : S1x1x8.Idx → EReal)
      = fun j : S1x1x8.Idx => Cert.Spec.featStats (V c main_arg3) (V c main_arg4) (((cfg1.win 2).blk t).view.emb j)
  funext j
  obtain ⟨u, v, k, rfl⟩ : ∃ (u v : Fin 1) (k : Fin 8), j = ix3 u v k := ⟨j 0, j 1, j 2, eq_ix3 j⟩
  have hu : u.val = 0 := by omega
  refine (pay4_apply (iblk1 V c 0 t) (iblk1 V c 1 t) u v k).trans ?_
  refine (blockStat_eq V c t k.val).trans (featStats_at _ _ _ (pt t) k.val ?_ ?_).symm
  · show win1_2.index t (0 : Fin 3) * 1 + 1 * u.val = t.val; rw [e0, hu]; omega
  · show win1_2.index t (2 : Fin 3) * 8 + 1 * k.val = k.val; rw [e2]; omega

/-- Point `t` writes back block `t` of the pooled array. -/
theorem flushed_gap (c : Dev nD) (t : Fin cfg1.N) :
    (dat1 (F := Ideal) V c).flushed 3 t
      = ((cfg1.win 3).blk t).view.read (Elt Ideal) (Cert.Spec.featGap (V c main_arg4)) := by
  show (cfg1.win 3).cut (grid1.coords t) ((dat1 V c).after 3 t) = _
  rw [after1_3]
  unfold out1_3
  rw [View.canon_unit_zero hz3]
  simp only [View.ld_unit_zero (S := S1x256x64x64) hz4]
  obtain ⟨-, -, -, -, -, -, -, -, -, -, -, e0, e1, e2⟩ := idx_facts t
  show (k1_pay1 (k1_pay3 (iblk1 V c 1 t)) : S1x1x256.Idx → EReal)
      = fun j : S1x1x256.Idx => Cert.Spec.featGap (V c main_arg4) (((cfg1.win 3).blk t).view.emb j)
  funext j
  obtain ⟨u, v, ch, rfl⟩ : ∃ (u v : Fin 1) (ch : Fin 256), j = ix3 u v ch := ⟨j 0, j 1, j 2, eq_ix3 j⟩
  have hu : u.val = 0 := by omega
  refine (pay13_apply (iblk1 V c 1 t) u v ch).trans ?_
  refine Eq.trans ?_ (featGap_at _ _ (pt t) ch ?_ ?_).symm
  · refine congrArg (· * Ideal.ofBits .f32 0x39800000#32) ?_
    unfold Cert.Spec.spatial
    exact Finset.sum_congr rfl fun h _ => Finset.sum_congr rfl fun w _ => iblkB_apply V c t 0 ch h w
  · show win1_3.index t (0 : Fin 3) * 1 + 1 * u.val = t.val; rw [e0, hu]; omega
  · show win1_3.index t (2 : Fin 3) * 256 + 1 * ch.val = ch.val; rw [e2]; omega

/-! ## The blocks tile the arrays: point `n` covers row `n` -/

/-- An index of the statistics array is in point `t`'s block iff each coordinate is in the block's range on its axis. -/
theorem mem_blk_stats (t : Fin cfg1.N) (i : S64x1x8.Idx) :
    i ∈ ((cfg1.win 2).blk t).view.set ↔ ∀ a : Fin 3, win1_2.index t a * S1x1x8.size a ≤ (i a).val
      ∧ (i a).val < win1_2.index t a * S1x1x8.size a + S1x1x8.size a := by
  show i ∈ ((View.whole main_v7_0).slice (win1_2.rect t)).set ↔ _
  rw [View.set_slice_whole, Rect.mem_set_unit]
  exact Iff.rfl

/-- The same for the pooled array. -/
theorem mem_blk_gap (t : Fin cfg1.N) (i : S64x1x256.Idx) :
    i ∈ ((cfg1.win 3).blk t).view.set ↔ ∀ a : Fin 3, win1_3.index t a * S1x1x256.size a ≤ (i a).val
      ∧ (i a).val < win1_3.index t a * S1x1x256.size a + S1x1x256.size a := by
  show i ∈ ((View.whole main_v7_1).slice (win1_3.rect t)).set ↔ _
  rw [View.set_slice_whole, Rect.mem_set_unit]
  exact Iff.rfl

theorem cover_stats (i : S64x1x8.Idx) :
    ∃ t : Fin cfg1.N, (cfg1.win 2).flush t = true ∧ i ∈ ((cfg1.win 2).blk t).view.set := by
  have h0 : (i 0).val < 64 := (i 0).isLt
  have h1 : (i 1).val < 1 := (i 1).isLt
  have h2 : (i 2).val < 8 := (i 2).isLt
  obtain ⟨t, ht⟩ : ∃ t : Fin cfg1.N, t.val = (i 0).val := ⟨⟨(i 0).val, lt_of_lt_of_eq h0 N_1.symm⟩, rfl⟩
  refine ⟨t, flush1_2 t, ?_⟩
  obtain ⟨-, -, -, -, -, -, -, -, e0, e1, e2, -⟩ := idx_facts t
  rw [mem_blk_stats]
  intro a
  match a with
  | ⟨0, _⟩ => show win1_2.index t (0 : Fin 3) * 1 ≤ (i 0).val ∧ (i 0).val < win1_2.index t (0 : Fin 3) * 1 + 1; rw [e0]; omega
  | ⟨1, _⟩ => show win1_2.index t (1 : Fin 3) * 1 ≤ (i 1).val ∧ (i 1).val < win1_2.index t (1 : Fin 3) * 1 + 1; rw [e1]; omega
  | ⟨2, _⟩ => show win1_2.index t (2 : Fin 3) * 8 ≤ (i 2).val ∧ (i 2).val < win1_2.index t (2 : Fin 3) * 8 + 8; rw [e2]; omega

theorem cover_gap (i : S64x1x256.Idx) :
    ∃ t : Fin cfg1.N, (cfg1.win 3).flush t = true ∧ i ∈ ((cfg1.win 3).blk t).view.set := by
  have h0 : (i 0).val < 64 := (i 0).isLt
  have h1 : (i 1).val < 1 := (i 1).isLt
  have h2 : (i 2).val < 256 := (i 2).isLt
  obtain ⟨t, ht⟩ : ∃ t : Fin cfg1.N, t.val = (i 0).val := ⟨⟨(i 0).val, lt_of_lt_of_eq h0 N_1.symm⟩, rfl⟩
  refine ⟨t, flush1_3 t, ?_⟩
  obtain ⟨-, -, -, -, -, -, -, -, -, -, -, e0, e1, e2⟩ := idx_facts t
  rw [mem_blk_gap]
  intro a
  match a with
  | ⟨0, _⟩ => show win1_3.index t (0 : Fin 3) * 1 ≤ (i 0).val ∧ (i 0).val < win1_3.index t (0 : Fin 3) * 1 + 1; rw [e0]; omega
  | ⟨1, _⟩ => show win1_3.index t (1 : Fin 3) * 1 ≤ (i 1).val ∧ (i 1).val < win1_3.index t (1 : Fin 3) * 1 + 1; rw [e1]; omega
  | ⟨2, _⟩ => show win1_3.index t (2 : Fin 3) * 256 ≤ (i 2).val ∧ (i 2).val < win1_3.index t (2 : Fin 3) * 256 + 256; rw [e2]; omega

/-! ## The arrays after the feature pass -/

/-- After all 64 points the statistics array holds the specification's statistics of the two feature arrays. -/
theorem arr_stats (c : Dev nD) :
    ((dat1 (F := Ideal) V c).arrAt 2 cfg1.N : S64x1x8.Idx → EReal)
      = Cert.Spec.featStats (V c main_arg3) (V c main_arg4) :=
  (dat1 (F := Ideal) V c).arrAt_eq_of_cover 2 (Cert.Spec.featStats (V c main_arg3) (V c main_arg4))
    (fun t _ => flushed_stats V c t) cover_stats

/-- After all 64 points the pooled array holds the specification's pooled features of the second feature array. -/
theorem arr_gap (c : Dev nD) :
    ((dat1 (F := Ideal) V c).arrAt 3 cfg1.N : S64x1x256.Idx → EReal)
      = Cert.Spec.featGap (V c main_arg4) :=
  (dat1 (F := Ideal) V c).arrAt_eq_of_cover 3 (Cert.Spec.featGap (V c main_arg4))
    (fun t _ => flushed_gap V c t) cover_gap

end Cert.KernelIdeal.Region1

end
-- ==== Proof.KBound1.lean ====
/-
  What the host operations after the feature pass find in its two output arrays: the statistics and the pooled
  features of the argument feature maps — the pass reads its inputs as launched, since nothing before it writes them.
-/
import proofs.«140594_j31001073943294_1_alg».proof.Proof.Gen.KernelIdeal.Frame
import proofs.«140594_j31001073943294_1_alg».proof.Proof.Region1
import proofs.«140594_j31001073943294_1_alg».proof.Proof.KBound

set_option maxRecDepth 16384

noncomputable section

namespace Cert.KernelIdeal.KBound

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The statistics array after the feature pass. -/
theorem W3_v70 : (W3 m ρ c (Proc.devRef .tc main_v7_0) : (⟨S64x1x8, .f32⟩ : BufTy).Contents (Elt Ideal))
    = Cert.Spec.featStats (m ((c : Thread nD τ).loc main_arg3)) (m ((c : Thread nD τ).loc main_arg4)) := by
  have e3 : (V2 m ρ c main_arg3 : Cert.Spec.Feat) = m ((c : Thread nD τ).loc main_arg3) := W2_arg3 m ρ c
  have e4 : (V2 m ρ c main_arg4 : Cert.Spec.Feat) = m ((c : Thread nD τ).loc main_arg4) := W2_arg4 m ρ c
  exact ((W3_arr m ρ c 2).trans (Cert.KernelIdeal.Region1.arr_stats (V2 m ρ) c)).trans (by rw [e3, e4])

/-- The pooled array after the feature pass. -/
theorem W3_v71 : (W3 m ρ c (Proc.devRef .tc main_v7_1) : (⟨S64x1x256, .f32⟩ : BufTy).Contents (Elt Ideal))
    = Cert.Spec.featGap (m ((c : Thread nD τ).loc main_arg4)) := by
  have e4 : (V2 m ρ c main_arg4 : Cert.Spec.Feat) = m ((c : Thread nD τ).loc main_arg4) := W2_arg4 m ρ c
  exact ((W3_arr m ρ c 3).trans (Cert.KernelIdeal.Region1.arr_gap (V2 m ρ) c)).trans (by rw [e4])

end Cert.KernelIdeal.KBound

end
-- ==== Proof.LibTypedRef.lean ====
/-
  Typed references of a host program's called functions: a round trip through the buffer is the identity.

  A called function's operations read and write their buffers through typed references
  (`StableHlo.TRef`): a value of the tensor's type is sent into the buffer along the reference's type equation
  (`toBuf`) and read back along it (`ofBuf`). When a run of such operations is read back as a composed term,
  every intermediate value appears as `x.ofBuf (x.toBuf v)`. That is `v`: `simp only [TRef.ofBuf_toBuf]` removes
  every such pair, for any program, before the composed term is compared with a cast-free one.
-/
import Idealize.ShloMosaic.Lib.StableHlo

namespace Idealize.ShloMosaic.StableHlo.TRef

/-- A value sent into a typed reference's buffer and read back is the value. -/
theorem ofBuf_toBuf {sig : RefSig} {Val : EltTy → Type} {T : BufTy} (x : TRef sig T) (v : T.Contents Val) :
    x.ofBuf (x.toBuf v) = v := by
  obtain ⟨r, h, h2, h3⟩ := x
  subst h
  rfl

/-- The other way round: contents read out of the buffer at the value's type and sent back are the contents. -/
theorem toBuf_ofBuf {sig : RefSig} {Val : EltTy → Type} {T : BufTy} (x : TRef sig T) (v : x.ref.ty.Contents Val) :
    x.toBuf (x.ofBuf v) = v := by
  obtain ⟨r, h, h2, h3⟩ := x
  subst h
  rfl

end Idealize.ShloMosaic.StableHlo.TRef
-- ==== Proof.Bridge.lean ====
/-
  The idealized kernel's result is the reference's, as functions of the arguments.

  The kernel's program ends with some eighty host operations: they read the six quantities its two reduction
  passes computed — the two mean squared errors, per sample the three inner products, the pooled features — and
  from there on are, operation for operation, the reference's own: the cosine alignment from the inner products,
  the batch-hard triplet loss from the pooled features and the labels, the weighted total. So once the six
  quantities are known to be the reference's (the leaves), the two results are the same composed term.
-/
import proofs.«140594_j31001073943294_1_alg».proof.Proof.Gen.KernelIdeal.Frame
import proofs.«140594_j31001073943294_1_alg».proof.Proof.Gen.ReferenceIdeal.Read
import proofs.«140594_j31001073943294_1_alg».proof.Proof.KBound
import proofs.«140594_j31001073943294_1_alg».proof.Proof.KBound1
import proofs.«140594_j31001073943294_1_alg».proof.Proof.Leaves
import proofs.«140594_j31001073943294_1_alg».proof.Proof.LibTypedRef
import Idealize.ShloMosaic.Lib.StableHlo.Run

set_option maxRecDepth 16384

noncomputable section

namespace Cert.Bridge

open Cert.KernelIdeal Cert.KernelIdeal.Gen
open Idealize.ShloMosaic Idealize.ShloMosaic.TcCoe Idealize.SL.Sem Idealize.ShloMosaic.StableHlo

/-! ## The kernel's reads of the statistics and pooled arrays, in the form its host operations spell them -/

theorem dot_form (fa fb : Cert.Spec.Feat) :
    (fun i => shapeCast main_v11.ty.shape
        (extractStridedSlice S64x1 ![0, 0]
          (fun i => shapeCast main_v8.ty.shape (Cert.Spec.featStats fa fb) shapeCasts_S64x1x8_S64x8 i) slices_S64x8_S64x1_0_0)
        shapeCasts_S64x1_S64 i)
      = Cert.ReferenceIdeal.Read.val_main_v17 (F := Ideal) fa fb :=
  Cert.Leaves.leaf_dot fa fb _ _ _

theorem na_form (fa fb : Cert.Spec.Feat) :
    (fun i => shapeCast main_v13.ty.shape
        (extractStridedSlice S64x1 ![0, 1]
          (fun i => shapeCast main_v8.ty.shape (Cert.Spec.featStats fa fb) shapeCasts_S64x1x8_S64x8 i) slices_S64x8_S64x1_0_1)
        shapeCasts_S64x1_S64 i)
      = Cert.ReferenceIdeal.Read.val_main_call0_v1 (F := Ideal) fa :=
  Cert.Leaves.leaf_na fa fb _ _ _

theorem nb_form (fa fb : Cert.Spec.Feat) :
    (fun i => shapeCast main_v15.ty.shape
        (extractStridedSlice S64x1 ![0, 2]
          (fun i => shapeCast main_v8.ty.shape (Cert.Spec.featStats fa fb) shapeCasts_S64x1x8_S64x8 i) slices_S64x8_S64x1_0_2)
        shapeCasts_S64x1_S64 i)
      = Cert.ReferenceIdeal.Read.val_main_call1_v1 (F := Ideal) fb :=
  Cert.Leaves.leaf_nb fa fb _ _ _

theorem gap_form (fb : Cert.Spec.Feat) :
    (fun i => shapeCast main_v9.ty.shape (Cert.Spec.featGap fb) shapeCasts_S64x1x256_S64x256 i)
      = Cert.ReferenceIdeal.Read.val_main_v25 (F := Ideal) fb :=
  Cert.Leaves.leaf_gap fb _

variable (m : (ℓ : Loc nD τ sig) → Buf (Elt Ideal) ℓ) (ρ : Dev nD → PrngReg) (c : Dev nD)

set_option maxHeartbeats 60000000 in
/-- The result buffer's contents at the last segment boundary are the reference's last stage of the arguments. -/
theorem tail_val :
    (W16 m ρ c (Proc.devRef .tc main_v82) : (⟨S_, .f32⟩ : BufTy).Contents (Elt Ideal))
      = Cert.ReferenceIdeal.Read.val_main_v81 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) := by
  show StableHlo.after hostOps2_12 (W15 m ρ c) (Proc.devRef .tc main_v82) = _
  after_results_simp
  rw [Cert.KernelIdeal.KBound.W3_v5, Cert.KernelIdeal.KBound.W3_v6, Cert.KernelIdeal.KBound.W3_v70,
    Cert.KernelIdeal.KBound.W3_v71, Cert.KernelIdeal.KBound.W3_arg5]
  rw [dot_form, na_form, nb_form, gap_form]
  simp only [TRef.ofBuf_toBuf, TRef.toBuf_ofBuf]
  rfl

end Cert.Bridge

end
-- ==== Proof.lean ====
/-
  The certificate of a multi-task loss: the total of a reconstruction term `mean (out_b - target)²`, a consistency
  term `mean (out_a - out_b)²`, half of a cosine-alignment term `1 - mean_n ⟨fa_n, fb_n⟩ / (max ‖fa_n‖ ε · max ‖fb_n‖ ε)`
  and twice a batch-hard triplet loss on the spatially pooled features of `fb` under the labels.

  The kernel computes it with two reduction passes and a host program. The first pass walks the batch in 16 tiles of
  4 images and accumulates the two sums of squared differences; the second visits one sample per point and leaves
  its three inner products and, per channel, the spatial sum of `fb` times `2⁻¹²`. The host program divides the two
  sums by the number of positions, forms the cosines, and runs the triplet mining on the pooled features. The
  reference takes the same quantities by whole-array reductions — the means over all positions, the inner products
  over the flattened maps, the spatial mean as a sum divided by `4096` — and then applies the same host operations.

  Over the extended reals the two programs are one function of the arguments. A sum over all positions is the sum
  of the tiles' sums and a sum over flat positions is the sum over channels, rows and columns, because addition is
  commutative and associative there with no side condition; dividing by `4096` is multiplying by `2⁻¹²` on every
  extended real. So no input need be finite, and the precondition is not opened.

  The modules: `Spec` states what the two passes leave; `Region0` and `Region1` prove it of the passes' output
  arrays; `KRun` is the kernel's run with its result buffer named; `KBound` and `KBound1` read the passes' arrays
  and the arguments at the boundaries between the program's segments; `Leaves` (over `LibIndexSums`) proves the
  six quantities equal to the reference's stages; `Bridge` reads the host program down to those quantities and
  meets the reference's last stage. The three frames are the generated ones (the reference's is its generated run
  with the result dropped); the idealization rewrote nothing, so `preserves` holds trivially.
-/
import proofs.«140594_j31001073943294_1_alg».proof.Defs
import proofs.«140594_j31001073943294_1_alg».proof.Proof.Gen.Kernel
import proofs.«140594_j31001073943294_1_alg».proof.Proof.Gen.Kernel.Skeleton
import proofs.«140594_j31001073943294_1_alg».proof.Proof.Gen.Kernel.Launch
import proofs.«140594_j31001073943294_1_alg».proof.Proof.Gen.Kernel.Points
import proofs.«140594_j31001073943294_1_alg».proof.Proof.Gen.Kernel.Frame
import proofs.«140594_j31001073943294_1_alg».proof.Proof.Gen.KernelIdeal
import proofs.«140594_j31001073943294_1_alg».proof.Proof.Gen.KernelIdeal.Skeleton
import proofs.«140594_j31001073943294_1_alg».proof.Proof.Gen.KernelIdeal.Launch
import proofs.«140594_j31001073943294_1_alg».proof.Proof.Gen.KernelIdeal.Points
import proofs.«140594_j31001073943294_1_alg».proof.Proof.Gen.KernelIdeal.Frame
import proofs.«140594_j31001073943294_1_alg».proof.Proof.Gen.ReferenceIdeal
import proofs.«140594_j31001073943294_1_alg».proof.Proof.Gen.ReferenceIdeal.Run
import proofs.«140594_j31001073943294_1_alg».proof.Proof.Gen.ReferenceIdeal.Read
import proofs.«140594_j31001073943294_1_alg».proof.Proof.Gen.Pre_finite_inputs
import proofs.«140594_j31001073943294_1_alg».proof.Proof.KRun
import proofs.«140594_j31001073943294_1_alg».proof.Proof.Bridge
import Idealize.ShloMosaic.Adequacy
import Idealize.ShloMosaic.Init

noncomputable section

namespace Cert.Proof

open Idealize.ShloMosaic Idealize.SL.Sem

/-- The word-level kernel runs and leaves its arguments as launched. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both idealized programs run, and their results are equal: the
    kernel's result buffer ends at the reference's last stage of the arguments (`Bridge.tail_val`), which is what the
    reference's run leaves in its own. -/
theorem algebraic : Cert.algebraic_KernelIdeal_ReferenceIdeal := by
  intro m ρ m' ρ' _ hagree
  refine ⟨fun c => Cert.KernelIdeal.Gen.W16 m ρ c (Proc.devRef .tc Cert.KernelIdeal.main_v82),
    Cert.KernelIdeal.KRun.run_val m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v81_eq, (hagree c).1, (hagree c).2.1, (hagree c).2.2.1, (hagree c).2.2.2.1,
    (hagree c).2.2.2.2.1, (hagree c).2.2.2.2.2]
  exact (Cert.Bridge.tail_val m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
